-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x16 : Shape := ⟨2, ![16, 16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x16 .f32) (main_arg3 : FVec F S16 .f32) (main_arg4 : FVec F S16x16 .f32) (main_arg5 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x16 : Shape := ⟨2, ![16, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x256 : Shape := ⟨2, ![5000, 256]⟩
abbrev S5000x16 : Shape := ⟨2, ![5000, 16]⟩
abbrev S3300000x16 : Shape := ⟨2, ![3300000, 16]⟩
abbrev S1x16 : Shape := ⟨2, ![1, 16]⟩
abbrev S10000x16 : Shape := ⟨2, ![10000, 16]⟩
abbrev S10000 : Shape := ⟨1, ![10000]⟩
abbrev S10000x1 : Shape := ⟨2, ![10000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x16, .f32⟩
  | .hbm, ⟨75, _⟩ => ⟨S3300000x1, .f32⟩
  | .hbm, ⟨76, _⟩ => ⟨S3300000x16, .f32⟩
  | .hbm, ⟨77, _⟩ => ⟨S3300000x16, .f32⟩
  | .hbm, ⟨78, _⟩ => ⟨S_, .f32⟩
  | .hbm, ⟨79, _⟩ => ⟨S100000x16, .f32⟩
  | .hbm, ⟨80, _⟩ => ⟨S3300000x1, .i32⟩
  | .hbm, ⟨81, _⟩ => ⟨S100000x16, .f32⟩
  | .hbm, ⟨82, _⟩ => ⟨S1x16, .f32⟩
  | .hbm, ⟨83, _⟩ => ⟨S100000x16, .f32⟩
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S5000x16, .f32⟩
  | .local _ .vmem, ⟨4, _⟩ => ⟨S5000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S1x16, .f32⟩
  | .local _ .vmem, ⟨18, _⟩ => ⟨S10000x16, .f32⟩
  | .local _ .vmem, ⟨19, _⟩ => ⟨S10000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  reduces_S10000x16_S10000 : S10000x16.Reduces [1] S10000
  shapeCasts_S10000_S10000x1 : S10000.ShapeCasts S10000x1
  broadcasts_S10000x1_S10000x16 : S10000x1.Broadcasts S10000x16
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x16_S5000x16_1_0_0_1_n_n_wf : DotDims.WF S5000x256 S256x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S100000x16.size a
  hwx3_2 : ∀ i : grid3.Coords, EltTy.bits .f32 = 32 ∨ (Rect.block (s := S100000x16) S10000x16.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x16 : Shape := ⟨2, ![16, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x16, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x16, .f32⟩
  | .hbm, ⟨79, _⟩ => ⟨S3300000x1, .f32⟩
  | .hbm, ⟨80, _⟩ => ⟨S3300000x16, .f32⟩
  | .hbm, ⟨81, _⟩ => ⟨S3300000x16, .f32⟩
  | .hbm, ⟨82, _⟩ => ⟨S_, .f32⟩
  | .hbm, ⟨83, _⟩ => ⟨S100000x16, .f32⟩
  | .hbm, ⟨84, _⟩ => ⟨S3300000x1, .i32⟩
  | .hbm, ⟨85, _⟩ => ⟨S100000x16, .f32⟩
  | .hbm, ⟨86, _⟩ => ⟨S1x16, .f32⟩
  | .hbm, ⟨87, _⟩ => ⟨S100000x16, .f32⟩
  | .hbm, ⟨88, _⟩ => ⟨S100000x16, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x16, .f32⟩
  | .hbm, ⟨96, _⟩ => ⟨S100000x16, .f32⟩
  | .hbm, ⟨97, _⟩ => ⟨S100000x16, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x16, .f32⟩
  | .hbm, ⟨103, _⟩ => ⟨S100000x16, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x16_S100000x16_1_0_0_1_n_n_wf : DotDims.WF S100000x256 S256x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.KRun.lean ====
/-
  The kernel program's run with its result kept.

  The program is nine segments: three stretches of host operations, then the first product's region, a
  stretch, the bias-and-relu region and the second product's region back to back, a stretch, and the
  bias-and-log-softmax region.  Every weakly fair execution from a memory with zero counters ends, and at
  the end every buffer that outlives the regions holds what the fold of the segments over the launch memory
  gives it — a stretch's operations applied in order, a region's arrays at what its write-backs leave.  The
  frame claim keeps of this only that the six arguments end as launched; kept here as well is the result
  buffer, at the fold's value for it.
-/
import proofs.«152566_j47450798686653_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer
    at the fold's final contents `W9` and the six arguments as launched. -/
theorem run : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.ResultRun

end
-- ==== Proof.Stages.lean ====
/-
  The graph convolution network of this certificate, stage by stage, as functions of whole arrays.

  With `e` the 2 × 3 200 000 table of edges, the 3 300 000 sources `srcIdx e` and targets `dstIdx e` are the
  edges' two rows, each followed by every node once (the self loops).  A node's degree `deg e` counts the
  targets equal to it, `dinv e` is its inverse square root (zero where the degree is not positive), and the
  weight of entry `k` of the edge list is `nrm e k = dinv[src k] · dinv[dst k]`.  One propagation step
  `agg e h` sends row `src k` of the node features `h`, scaled by `nrm e k`, to row `dst k` and adds up what
  arrives at each row.  The network is

      logSoftmax (agg e (relu (agg e (x · W₁) + b₁) · W₂) + b₂)

  with the row-wise `logSoftmax z = (z − max z) − log Σ exp (z − max z)`.

  The weights and the propagation step are also given over any lists of sources, targets and weights
  (`nrmOf`, `aggOf`), the forms a stretch of operations computes from what it finds.

  The stages are spelt with the host operations of the printed reference program, at any float
  interpretation `F`; each float constant carries its interpretation explicitly, because the degree is a
  float quantity computed from integer data only and nothing else would determine it.
-/
import proofs.«152566_j47450798686653_1_alg».proof.Proof.Gen.ReferenceIdeal

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The edges' sources, then every node once. -/
def srcIdx (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The edges' targets, then every node once. -/
def dstIdx (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A negative node number counts from the end: `i + 100000` where `i < 0`. -/
def wrapIdx (i : (⟨S3300000, .i32⟩ : BufTy).Contents (Elt F)) : (⟨S3300000, .i32⟩ : BufTy).Contents (Elt F) :=
  select (cmpi .slt i (broadcastInDim S3300000 ![] bcast_S_S3300000 (constantI S_ 32 0#32)))
    (addi i (broadcastInDim S3300000 ![] bcast_S_S3300000 (constantI S_ 32 100000#32))) i

/-- A list of node numbers as a one-column table of positions. -/
def asColumn (i : (⟨S3300000, .i32⟩ : BufTy).Contents (Elt F)) : (⟨S3300000x1, .i32⟩ : BufTy).Contents (Elt F) :=
  broadcastInDim S3300000x1 ![0] bcast_S3300000_S3300000x1_0 i

/-- The number of entries of the edge list that point at each node. -/
def deg (e : (⟨S2x3200000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant (F := F) S_ .f32 0x00000000#32))
    (asColumn (F := F) (dstIdx (F := F) e))
    (broadcastInDim S3300000 ![] bcast_S_S3300000 (constant (F := F) S_ .f32 0x3F800000#32))

/-- Where the mask holds the first vector, elsewhere the scalar. -/
def dinvOf (pos : (⟨S100000, .i1⟩ : BufTy).Contents (Elt F)) (rs : (⟨S100000, .f32⟩ : BufTy).Contents (Elt F)) (z : (⟨S_, .f32⟩ : BufTy).Contents (Elt F)) : (⟨S100000, .f32⟩ : BufTy).Contents (Elt F) :=
  select pos rs (broadcastInDim S100000 ![] bcast_S_S100000 (id z))

/-- `1 / sqrt (deg)` where the degree is positive, zero elsewhere. -/
def dinv (e : (⟨S2x3200000, .i32⟩ : BufTy).Contents (Elt F)) : (⟨S100000, .f32⟩ : BufTy).Contents (Elt F) :=
  dinvOf (F := F) (cmpf .ogt (deg (F := F) e) (broadcastInDim S100000 ![] bcast_S_S100000 (constant (F := F) S_ .f32 0x00000000#32)))
    (Host.rsqrt (deg (F := F) e)) (constant (F := F) S_ .f32 0x00000000#32)

/-- The weight of each entry of an edge list with sources `src` and targets `dst`: `d` at its source times `d` at
    its target. -/
def nrmOf (d : (⟨S100000, .f32⟩ : BufTy).Contents (Elt F)) (src dst : (⟨S3300000, .i32⟩ : BufTy).Contents (Elt F)) : (⟨S3300000, .f32⟩ : BufTy).Contents (Elt F) :=
  mulf (Host.gather gather_S100000_S3300000x1_S3300000_n_0_n_n_0_1_1 d (asColumn (F := F) (wrapIdx (F := F) src)))
    (Host.gather gather_S100000_S3300000x1_S3300000_n_0_n_n_0_1_1 d (asColumn (F := F) (wrapIdx (F := F) dst)))

/-- The weight of each entry of the edge list: `dinv` at its source times `dinv` at its target. -/
def nrm (e : (⟨S2x3200000, .i32⟩ : BufTy).Contents (Elt F)) : (⟨S3300000, .f32⟩ : BufTy).Contents (Elt F) :=
  nrmOf (F := F) (dinv (F := F) e) (srcIdx (F := F) e) (dstIdx (F := F) e)

/-- One propagation step over an edge list with sources `src`, targets `dst` and weights `w`: row `src k` of `h`,
    scaled by `w k`, added into row `dst k`. -/
def aggOf (src dst : (⟨S3300000, .i32⟩ : BufTy).Contents (Elt F)) (w : (⟨S3300000, .f32⟩ : BufTy).Contents (Elt F)) (h : (⟨S100000x16, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant (F := F) S_ .f32 0x00000000#32))
    (asColumn (F := F) dst)
    (mulf (Host.gather gather_S100000x16_S3300000x1_S3300000x16_1_0_n_n_0_1_116 h (asColumn (F := F) (wrapIdx (F := F) src)))
      (broadcastInDim S3300000x16 ![0, 1] bcast_S3300000x1_S3300000x16_0_1 (broadcastInDim S3300000x1 ![0] bcast_S3300000_S3300000x1_0 w)))

/-- One propagation step over the edge list of `e`. -/
def agg (e : (⟨S2x3200000, .i32⟩ : BufTy).Contents (Elt F)) (h : (⟨S100000x16, .f32⟩ : BufTy).Contents (Elt F)) : (⟨S100000x16, .f32⟩ : BufTy).Contents (Elt F) :=
  aggOf (F := F) (srcIdx (F := F) e) (dstIdx (F := F) e) (nrm (F := F) e) h

/-- The first layer's product `x · W₁`. -/
def lin1 (x : (⟨S100000x256, .f32⟩ : BufTy).Contents (Elt F)) (w : (⟨S256x16, .f32⟩ : BufTy).Contents (Elt F)) : (⟨S100000x16, .f32⟩ : BufTy).Contents (Elt F) :=
  Host.dotGeneral dot_S100000x256_S256x16_S100000x16_1_0_0_1_n_n none x w

/-- The second layer's product `h · W₂`. -/
def lin2 (h : (⟨S100000x16, .f32⟩ : BufTy).Contents (Elt F)) (w : (⟨S16x16, .f32⟩ : BufTy).Contents (Elt F)) : (⟨S100000x16, .f32⟩ : BufTy).Contents (Elt F) :=
  Host.dotGeneral dot_S100000x16_S16x16_S100000x16_1_0_0_1_n_n none h w

/-- The bias `b` added to every row. -/
def addBias (a : (⟨S100000x16, .f32⟩ : BufTy).Contents (Elt F)) (b : (⟨S16, .f32⟩ : BufTy).Contents (Elt F)) : (⟨S100000x16, .f32⟩ : BufTy).Contents (Elt F) :=
  addf a (broadcastInDim S100000x16 ![0, 1] bcast_S1x16_S100000x16_0_1 (broadcastInDim S1x16 ![1] bcast_S16_S1x16_1 b))

/-- `max z 0`, entry by entry. -/
def relu (z : (⟨S100000x16, .f32⟩ : BufTy).Contents (Elt F)) : (⟨S100000x16, .f32⟩ : BufTy).Contents (Elt F) :=
  maximumf z (broadcastInDim S100000x16 ![] bcast_S_S100000x16 (constant (F := F) S_ .f32 0x00000000#32))

/-- The largest entry of each row (the maximum of `-∞` and the row's entries). -/
def rowMax (z : (⟨S100000x16, .f32⟩ : BufTy).Contents (Elt F)) : (⟨S100000, .f32⟩ : BufTy).Contents (Elt F) :=
  maximumf (broadcastInDim S100000 ![] bcast_S_S100000 (constant (F := F) S_ .f32 0xFF800000#32))
    (Host.reduce FloatOps.maximumf z (constant (F := F) S_ .f32 0xFF800000#32) reducesTo_S100000x16_S100000_d1 h_S_)

/-- Each row minus its largest entry. -/
def shifted (z : (⟨S100000x16, .f32⟩ : BufTy).Contents (Elt F)) : (⟨S100000x16, .f32⟩ : BufTy).Contents (Elt F) :=
  subf z (broadcastInDim S100000x16 ![0, 1] bcast_S100000x1_S100000x16_0_1 (broadcastInDim S100000x1 ![0] bcast_S100000_S100000x1_0 (rowMax (F := F) z)))

/-- A shifted matrix minus, in each row, the logarithm of the sum of its exponentials. -/
def logSoftmaxOf (sh : (⟨S100000x16, .f32⟩ : BufTy).Contents (Elt F)) : (⟨S100000x16, .f32⟩ : BufTy).Contents (Elt F) :=
  subf sh
    (broadcastInDim S100000x16 ![0, 1] bcast_S100000x1_S100000x16_0_1
      (Host.log (broadcastInDim S100000x1 ![0] bcast_S100000_S100000x1_0
        (Host.reduceAdd (Host.exp sh) (constant (F := F) S_ .f32 0x00000000#32) reducesTo_S100000x16_S100000_d1 h_S_))))

/-- The row-wise `log softmax`: the shifted row minus the logarithm of the sum of its exponentials. -/
def logSoftmax (z : (⟨S100000x16, .f32⟩ : BufTy).Contents (Elt F)) : (⟨S100000x16, .f32⟩ : BufTy).Contents (Elt F) :=
  logSoftmaxOf (F := F) (shifted (F := F) z)

/-! ## The row-wise stages at an entry

Each is the stage's definition applied at an index; nothing is evaluated. -/

theorem rowMax_apply (z : (⟨S100000x16, .f32⟩ : BufTy).Contents (Elt F)) (i : S100000.Idx) :
    rowMax (F := F) z i = FloatOps.maximumf (broadcastInDim S100000 ![] bcast_S_S100000 (constant (F := F) S_ .f32 0xFF800000#32) i)
      (Host.reduce FloatOps.maximumf z (constant (F := F) S_ .f32 0xFF800000#32) reducesTo_S100000x16_S100000_d1 h_S_ i) := rfl

theorem shifted_apply (z : (⟨S100000x16, .f32⟩ : BufTy).Contents (Elt F)) (i : S100000x16.Idx) :
    shifted (F := F) z i = FloatOps.subf (z i)
      (broadcastInDim S100000x16 ![0, 1] bcast_S100000x1_S100000x16_0_1
        (broadcastInDim S100000x1 ![0] bcast_S100000_S100000x1_0 (rowMax (F := F) z)) i) := rfl

theorem logSoftmaxOf_apply (sh : (⟨S100000x16, .f32⟩ : BufTy).Contents (Elt F)) (i : S100000x16.Idx) :
    logSoftmaxOf (F := F) sh i = FloatOps.subf (sh i)
      (broadcastInDim S100000x16 ![0, 1] bcast_S100000x1_S100000x16_0_1
        (Host.log (broadcastInDim S100000x1 ![0] bcast_S100000_S100000x1_0
          (Host.reduceAdd (Host.exp sh) (constant (F := F) S_ .f32 0x00000000#32) reducesTo_S100000x16_S100000_d1 h_S_))) i) := rfl

theorem hostLog_apply {s : Shape} (x : FVec F s .f32) (i : s.Idx) : Host.log x i = FloatOps.hostUnary .log (x i) := rfl

theorem hostExp_apply {s : Shape} (x : FVec F s .f32) (i : s.Idx) : Host.exp x i = FloatOps.hostUnary .exp (x i) := rfl

/-- The hidden layer: `relu (agg e (x · W₁) + b₁)`. -/
def hidden (x : (⟨S100000x256, .f32⟩ : BufTy).Contents (Elt F)) (e : (⟨S2x3200000, .i32⟩ : BufTy).Contents (Elt F))
    (w1 : (⟨S256x16, .f32⟩ : BufTy).Contents (Elt F)) (b1 : (⟨S16, .f32⟩ : BufTy).Contents (Elt F)) : (⟨S100000x16, .f32⟩ : BufTy).Contents (Elt F) :=
  relu (F := F) (addBias (F := F) (agg (F := F) e (lin1 (F := F) x w1)) b1)

/-- The whole network: `logSoftmax (agg e (hidden · W₂) + b₂)`. -/
def network (x : (⟨S100000x256, .f32⟩ : BufTy).Contents (Elt F)) (e : (⟨S2x3200000, .i32⟩ : BufTy).Contents (Elt F))
    (w1 : (⟨S256x16, .f32⟩ : BufTy).Contents (Elt F)) (b1 : (⟨S16, .f32⟩ : BufTy).Contents (Elt F))
    (w2 : (⟨S16x16, .f32⟩ : BufTy).Contents (Elt F)) (b2 : (⟨S16, .f32⟩ : BufTy).Contents (Elt F)) : (⟨S100000x16, .f32⟩ : BufTy).Contents (Elt F) :=
  logSoftmax (F := F) (addBias (F := F) (agg (F := F) e (lin2 (F := F) (hidden (F := F) x e w1 b1) w2)) b2)

end Cert.ReferenceIdeal.Stages

end
-- ==== Proof.Spec.lean ====
/-
  The dense stages of the network, entry by entry, on extended reals.

  A matrix is a function of a pair of coordinates.  The product `matProd x w` has at `(i, j)` the sum over
  `t` of `x (i, t) · w (t, j)`; `addRow a b` adds `b j` to every entry of column `j`; `relu0` takes the
  maximum with the zero word's value; `rowTop z i` is the largest entry of row `i` (the maximum of `-∞`'s
  word and the row's entries); `logSoftmaxRows z` has at `(i, j)`

      (z (i, j) − rowTop z i) − log Σ_t exp (z (i, t) − rowTop z i).

  Float literals are kept as their words: the same word stands on both sides of every comparison, so it is
  never evaluated.
-/
import Idealize.ShloMosaic.PureOps.Ideal
import Idealize.ShloMosaic.Lib.ValueIdx

noncomputable section

namespace Cert.Spec

open Idealize.ShloMosaic Idealize.ShloMosaic.ValueIdx
open scoped BigOperators

variable {n k m : ℕ}

/-- `(x · w) (i, j) = Σ_t x (i, t) · w (t, j)`. -/
def matProd (x : (⟨2, ![n, k]⟩ : Shape).Idx → EReal) (w : (⟨2, ![k, m]⟩ : Shape).Idx → EReal) :
    (⟨2, ![n, m]⟩ : Shape).Idx → EReal :=
  fun i => ∑ t : Fin k, x (ix2 (i 0) t) * w (ix2 t (i 1))

/-- The one row of a `1 × m` matrix as a vector. -/
def rowOf (b : (⟨2, ![1, m]⟩ : Shape).Idx → EReal) : (⟨1, ![m]⟩ : Shape).Idx → EReal :=
  fun j => b (ix2 (0 : Fin 1) (j 0))

/-- `b j` added to every entry of column `j`. -/
def addRow (a : (⟨2, ![n, m]⟩ : Shape).Idx → EReal) (b : (⟨1, ![m]⟩ : Shape).Idx → EReal) :
    (⟨2, ![n, m]⟩ : Shape).Idx → EReal :=
  fun i => a i + b (ix1 (i 1))

/-- The maximum with zero, entry by entry. -/
def relu0 (z : (⟨2, ![n, m]⟩ : Shape).Idx → EReal) : (⟨2, ![n, m]⟩ : Shape).Idx → EReal :=
  fun i => max (z i) (Ideal.ofBits .f32 0x00000000#32)

/-- The largest entry of row `i`, folded from `-∞`. -/
def rowTop (z : (⟨2, ![n, m]⟩ : Shape).Idx → EReal) (i : Fin n) : EReal :=
  (Finset.univ : Finset (Fin m)).fold max (Ideal.ofBits .f32 0xFF800000#32) (fun t => z (ix2 i t))

/-- The row-wise log softmax. -/
def logSoftmaxRows (z : (⟨2, ![n, m]⟩ : Shape).Idx → EReal) : (⟨2, ![n, m]⟩ : Shape).Idx → EReal :=
  fun i => (z i - rowTop z (i 0)) - Ideal.log (∑ t : Fin m, Ideal.exp (z (ix2 (i 0) t) - rowTop z (i 0)))

theorem matProd_apply (x : (⟨2, ![n, k]⟩ : Shape).Idx → EReal) (w : (⟨2, ![k, m]⟩ : Shape).Idx → EReal) (i : (⟨2, ![n, m]⟩ : Shape).Idx) :
    matProd x w i = ∑ t : Fin k, x (ix2 (i 0) t) * w (ix2 t (i 1)) := rfl

theorem matProd_ix2 (x : (⟨2, ![n, k]⟩ : Shape).Idx → EReal) (w : (⟨2, ![k, m]⟩ : Shape).Idx → EReal) (p : Fin n) (q : Fin m) :
    matProd x w (ix2 p q) = ∑ t : Fin k, x (ix2 p t) * w (ix2 t q) := rfl

theorem relu0_addRow_ix2 (a : (⟨2, ![n, m]⟩ : Shape).Idx → EReal) (b : (⟨1, ![m]⟩ : Shape).Idx → EReal) (p : Fin n) (q : Fin m) :
    relu0 (addRow a b) (ix2 p q) = max (a (ix2 p q) + b (ix1 q)) (Ideal.ofBits .f32 0x00000000#32) := rfl

theorem logSoftmaxRows_ix2 (z : (⟨2, ![n, m]⟩ : Shape).Idx → EReal) (p : Fin n) (q : Fin m) :
    logSoftmaxRows z (ix2 p q) = (z (ix2 p q) - rowTop z p) - Ideal.log (∑ t : Fin m, Ideal.exp (z (ix2 p t) - rowTop z p)) := rfl

theorem addRow_ix2 (a : (⟨2, ![n, m]⟩ : Shape).Idx → EReal) (b : (⟨1, ![m]⟩ : Shape).Idx → EReal) (p : Fin n) (q : Fin m) :
    addRow a b (ix2 p q) = a (ix2 p q) + b (ix1 q) := rfl

/-- `logSoftmaxRows` at `(p, q)` depends on row `p` only: two matrices that agree along a row of each have
    the same value there. -/
theorem logSoftmaxRows_row_congr {n' : ℕ} (z : (⟨2, ![n, m]⟩ : Shape).Idx → EReal) (z' : (⟨2, ![n', m]⟩ : Shape).Idx → EReal)
    (p : Fin n) (p' : Fin n') (h : ∀ s : Fin m, z (ix2 p s) = z' (ix2 p' s)) (q : Fin m) :
    logSoftmaxRows z (ix2 p q) = logSoftmaxRows z' (ix2 p' q) := by
  have hf : (fun t => z (ix2 p t)) = fun t => z' (ix2 p' t) := funext h
  have ht : rowTop z p = rowTop z' p' :=
    congrArg ((Finset.univ : Finset (Fin m)).fold max (Ideal.ofBits .f32 0xFF800000#32)) hf
  rw [logSoftmaxRows_ix2, logSoftmaxRows_ix2, ht, h q]
  exact congrArg (fun f : Fin m → EReal =>
    (z' (ix2 p' q) - rowTop z' p') - Ideal.log (∑ t : Fin m, Ideal.exp (f t - rowTop z' p'))) hf

end Cert.Spec

end
-- ==== Proof.LibMatProd.lean ====
/- Matrix products of the ideal float instance read at an entry, for any extents: a rows-by-columns product
   (contracting the left operand's columns with the right operand's rows) accumulated into the zero matrix, and
   the host's product of the same pattern, are both, at (p, q), the sum over t of left (p, t) · right (t, q). -/
import Idealize.ShloMosaic.PureOps.Ideal
import Idealize.ShloMosaic.PureOps.Ideal.Laws
import Idealize.ShloMosaic.Lib.ValueIdx

noncomputable section

namespace Cert.Lib.MatProd

open Idealize.ShloMosaic Idealize.ShloMosaic.ValueIdx
open scoped BigOperators

variable {M K N : ℕ} {φ₁ φ₂ : FTy}

/-- The left operand's index at result entry j and contraction coordinate t: row j₀, column t. -/
theorem plain_lhs (j : (⟨2, ![M, N]⟩ : Shape).Idx) (t : Fin K) :
    (DotDims.plain M K N).lhsIdx j ((contrEquiv1 (DotDims.plain M K N) K rfl rfl).symm t) = ix2 (j 0) t := by
  funext a; apply Fin.ext
  match a with
  | ⟨0, _⟩ => rfl
  | ⟨1, _⟩ =>
    exact ((DotDims.plain M K N).lhsIdx_val_of_single rfl j _).trans
      (contrEquiv1_symm_val (DotDims.plain M K N) K rfl rfl t)

/-- The right operand's index at result entry j and contraction coordinate t: row t, column j₁. -/
theorem plain_rhs (j : (⟨2, ![M, N]⟩ : Shape).Idx) (t : Fin K) :
    (DotDims.plain M K N).rhsIdx j ((contrEquiv1 (DotDims.plain M K N) K rfl rfl).symm t) = ix2 t (j 1) := by
  funext a; apply Fin.ext
  match a with
  | ⟨0, _⟩ =>
    exact ((DotDims.plain M K N).rhsIdx_val_of_single rfl j _).trans
      (contrEquiv1_symm_val (DotDims.plain M K N) K rfl rfl t)
  | ⟨1, _⟩ => rfl

/-- A product accumulated into the zero matrix, read at (p, q). -/
theorem matmul_zero_read (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant (F := Ideal) ⟨2, ![M, N]⟩ .f32 0x00000000#32) (ix2 p q)
      = ∑ t : Fin K, l (ix2 p t) * r (ix2 t q) := by
  refine (Ideal.matmul_constant_zero_apply (DotDims.plain M K N) prec l r (ix2 p q)).trans ?_
  rw [← Equiv.sum_comp (contrEquiv1 (DotDims.plain M K N) K rfl rfl).symm]
  exact Finset.sum_congr rfl fun t _ => by rw [plain_lhs, plain_rhs]; rfl

/-- The host's product, read at (p, q). -/
theorem dotGeneral_read (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ t : Fin K, l (ix2 p t) * r (ix2 t q) := by
  refine (Ideal.dotGeneral_apply (DotDims.plain M K N) prec sched l r (ix2 p q)).trans ?_
  rw [← Equiv.sum_comp (contrEquiv1 (DotDims.plain M K N) K rfl rfl).symm]
  exact Finset.sum_congr rfl fun t _ => by rw [plain_lhs, plain_rhs]; rfl

end Cert.Lib.MatProd

end
-- ==== Proof.LibMatRead.lean ====
/- Vector operations of the ideal float instance read at an entry: reductions along the last axis of a
   matrix or the middle axis of a stack, a column broadcast over rows, slices, casts and concatenations
   of a stack of matrices, and the identity mask. Stated for any extents. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Lib.MatRead

open Idealize.ShloMosaic Idealize.ShloMosaic.ValueIdx
open scoped BigOperators

variable {φ : FTy}

/-! ### The index a reduction inserts -/

/-- Row i of a matrix with column k put back: (i, k). -/
theorem lift_row {a b : ℕ} (h : (⟨2, ![a, b]⟩ : Shape).Reduces [1] ⟨1, ![a]⟩) (i : Fin a) (k : Fin b) :
    h.lift (ix1 i) k = ix2 i k := by
  funext c; apply Fin.ext
  match c with
  | ⟨0, _⟩ => rfl
  | ⟨1, _⟩ => rfl

/-- Entry (g, j) of a stack's column sums with the row s put back: (g, s, j). -/
theorem lift_mid {m a b : ℕ} (h : (⟨3, ![m, a, b]⟩ : Shape).Reduces [1] ⟨2, ![m, b]⟩) (g : Fin m) (j : Fin b) (s : Fin a) :
    h.lift (ix2 g j) s = ix3 g s j := by
  funext c; apply Fin.ext
  match c with
  | ⟨0, _⟩ => rfl
  | ⟨1, _⟩ => rfl
  | ⟨2, _⟩ => rfl

/-! ### Reductions -/

/-- The sum along a matrix's rows. -/
theorem rowSum_read {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ t : Fin b, X (ix2 i t) := by
  rw [Ideal.multiReduction_add_single]
  exact Finset.sum_congr rfl fun t _ => congrArg X (lift_row h i t)

/-- The maximum along a matrix's rows, folded from the accumulator's word. -/
theorem rowMax_read {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun t => X (ix2 i t)) := by
  rw [Ideal.multiReduction_maximumf_single]
  congr 1
  funext t
  exact congrArg X (lift_row h i t)

/-- The sums down the columns of each matrix of a stack. -/
theorem colSum_read {m a b : ℕ} (X : FVec Ideal ⟨3, ![m, a, b]⟩ φ) (acc : BitVec φ.bits)
    (h : (⟨3, ![m, a, b]⟩ : Shape).Reduces [1] ⟨2, ![m, b]⟩) (hφ : FKind.Formats φ) (hacc : acc = FKind.add.neutral φ hφ)
    (g : Fin m) (j : Fin b) :
    multiReduction .add [1] ⟨2, ![m, b]⟩ X acc h hφ hacc (ix2 g j) = ∑ s : Fin a, X (ix3 g s j) := by
  rw [Ideal.multiReduction_add_single]
  exact Finset.sum_congr rfl fun s _ => congrArg X (lift_mid h g j s)

/-! ### A vector of row values spread over the columns -/

/-- A vector cast to a one-column matrix and broadcast over b columns reads, at (i, j), the vector at i. -/
theorem colBcast_read {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩) (i : Fin a) (j : Fin b) :
    broadcastTo ⟨2, ![a, b]⟩ (shapeCast ⟨2, ![a, 1]⟩ v hc) hb (ix2 i j) = v (ix1 i) := by
  rw [broadcastTo_apply _ hb (ix2 i j) (ix2 i (0 : Fin 1)) (fun ax => by
    match ax with
    | ⟨0, _⟩ =>
      show i.val = if a = 1 then 0 else i.val
      split
      · have := i.isLt; omega
      · rfl
    | ⟨1, _⟩ => rfl)]
  exact shapeCast_apply v hc _ _ (by
    rw [Shape.rowMajor_val_one, Shape.rowMajor_val_two]
    show i.val = i.val * 1 + 0
    omega)

/-! ### Casts and broadcasts of a stack of matrices -/

section Layout
variable {α : Type}

/-- A vector of m values cast to m × 1 and then to m × 1 × 1 reads, at (g, ·, ·), the vector at g. -/
theorem cast_m_m11_read {m : ℕ} (v : (⟨1, ![m]⟩ : Shape).Idx → α)
    (h1 : (⟨1, ![m]⟩ : Shape).ShapeCasts ⟨2, ![m, 1]⟩) (h2 : (⟨2, ![m, 1]⟩ : Shape).ShapeCasts ⟨3, ![m, 1, 1]⟩)
    (g : Fin m) (u u' : Fin 1) :
    shapeCast ⟨3, ![m, 1, 1]⟩ (shapeCast ⟨2, ![m, 1]⟩ v h1) h2 (ix3 g u u') = v (ix1 g) := by
  have hu : u.val = 0 := by omega
  have hu' : u'.val = 0 := by omega
  rw [shapeCast_apply _ h2 (ix3 g u u') (ix2 g (0 : Fin 1)) (by
    rw [Shape.rowMajor_val_two, Shape.rowMajor_val_three]
    show g.val * 1 + 0 = (g.val * 1 + u.val) * 1 + u'.val
    omega)]
  exact shapeCast_apply v h1 _ _ (by
    rw [Shape.rowMajor_val_one, Shape.rowMajor_val_two]
    show g.val = g.val * 1 + 0
    omega)

/-- An m × 1 × 1 stack of scalars broadcast to m × a × b reads, at (g, i, j), the scalar of g. -/
theorem bcast_m11_read {m a b : ℕ} (x : (⟨3, ![m, 1, 1]⟩ : Shape).Idx → α)
    (h : (⟨3, ![m, 1, 1]⟩ : Shape).Broadcasts ⟨3, ![m, a, b]⟩) (g : Fin m) (i : Fin a) (j : Fin b) :
    broadcastTo ⟨3, ![m, a, b]⟩ x h (ix3 g i j) = x (ix3 g (0 : Fin 1) (0 : Fin 1)) := by
  refine broadcastTo_apply x h (ix3 g i j) (ix3 g (0 : Fin 1) (0 : Fin 1)) fun ax => ?_
  match ax with
  | ⟨0, _⟩ =>
    show g.val = if m = 1 then 0 else g.val
    split
    · have := g.isLt; omega
    · rfl
  | ⟨1, _⟩ => rfl
  | ⟨2, _⟩ => rfl

/-- One matrix broadcast to a stack of m reads, at (g, i, j), the matrix at (i, j). -/
theorem bcast_1ab_read {m a b : ℕ} (x : (⟨3, ![1, a, b]⟩ : Shape).Idx → α)
    (h : (⟨3, ![1, a, b]⟩ : Shape).Broadcasts ⟨3, ![m, a, b]⟩) (g : Fin m) (i : Fin a) (j : Fin b) :
    broadcastTo ⟨3, ![m, a, b]⟩ x h (ix3 g i j) = x (ix3 (0 : Fin 1) i j) := by
  refine broadcastTo_apply x h (ix3 g i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Matrix g of a stack, sliced out as a stack of one and cast to a matrix, reads the stack at (g, i, j). -/
theorem sliceMat_read {m a b : ℕ} (o : ℕ) (x : (⟨3, ![m, a, b]⟩ : Shape).Idx → α)
    (hs : (⟨3, ![m, a, b]⟩ : Shape).Slices ![o, 0, 0] ⟨3, ![1, a, b]⟩)
    (hc : (⟨3, ![1, a, b]⟩ : Shape).ShapeCasts ⟨2, ![a, b]⟩) (g : Fin m) (hg : g.val = o) (i : Fin a) (j : Fin b) :
    shapeCast ⟨2, ![a, b]⟩ (extractStridedSlice ⟨3, ![1, a, b]⟩ ![o, 0, 0] x hs) hc (ix2 i j) = x (ix3 g i j) := by
  rw [shapeCast_1ab_ab_apply]
  refine extractStridedSlice_apply _ x hs _ (ix3 g i j) fun ax => ?_
  match ax with
  | ⟨0, _⟩ => show g.val = o + 0; omega
  | ⟨1, _⟩ => show i.val = 0 + i.val; omega
  | ⟨2, _⟩ => show j.val = 0 + j.val; omega

/-- Columns o … o + w' − 1 of a matrix, sliced out, read the matrix at (i, o + d). -/
theorem sliceCols_read {n w w' : ℕ} (o : ℕ) (x : (⟨2, ![n, w]⟩ : Shape).Idx → α)
    (h : (⟨2, ![n, w]⟩ : Shape).Slices ![0, o] ⟨2, ![n, w']⟩) (i : Fin n) (d : Fin w') (c : Fin w) (hc : c.val = o + d.val) :
    extractStridedSlice ⟨2, ![n, w']⟩ ![0, o] x h (ix2 i d) = x (ix2 i c) := by
  refine extractStridedSlice_apply _ x h _ (ix2 i c) fun ax => ?_
  match ax with
  | ⟨0, _⟩ => show i.val = 0 + i.val; omega
  | ⟨1, _⟩ => exact hc

/-- Two matrices set side by side: a column of the first. -/
theorem concatCols_left {n w1 w2 w : ℕ} (x1 : (⟨2, ![n, w1]⟩ : Shape).Idx → α) (x2 : (⟨2, ![n, w2]⟩ : Shape).Idx → α)
    (h : Shape.Concatenates [⟨2, ![n, w1]⟩, ⟨2, ![n, w2]⟩] ⟨2, ![n, w]⟩ 1) (i : Fin n) (d : Fin w1) (c : Fin w) (hc : c.val = d.val) :
    concatenate ⟨2, ![n, w]⟩ 1 [⟨⟨2, ![n, w1]⟩, x1⟩, ⟨⟨2, ![n, w2]⟩, x2⟩] h (ix2 i c) = x1 (ix2 i d) := by
  refine concatenate_pair_apply_left 1 x1 x2 h (ix2 i c) rfl (ix2 i d) fun ax => ?_
  match ax with
  | ⟨0, _⟩ => rfl
  | ⟨1, _⟩ => exact hc.symm

/-- Two matrices set side by side: a column of the second. -/
theorem concatCols_right {n w1 w2 w : ℕ} (x1 : (⟨2, ![n, w1]⟩ : Shape).Idx → α) (x2 : (⟨2, ![n, w2]⟩ : Shape).Idx → α)
    (h : Shape.Concatenates [⟨2, ![n, w1]⟩, ⟨2, ![n, w2]⟩] ⟨2, ![n, w]⟩ 1) (i : Fin n) (d : Fin w2) (c : Fin w) (hc : c.val = d.val + w1) :
    concatenate ⟨2, ![n, w]⟩ 1 [⟨⟨2, ![n, w1]⟩, x1⟩, ⟨⟨2, ![n, w2]⟩, x2⟩] h (ix2 i c) = x2 (ix2 i d) := by
  refine concatenate_pair_apply_right 1 x1 x2 h (ix2 i c) rfl rfl (ix2 i d) (fun ax hne => ?_) hc.symm
  match ax with
  | ⟨0, _⟩ => rfl
  | ⟨1, _⟩ => exact absurd rfl hne

/-- Two matrices stacked: the first. -/
theorem stack2_fst {a b : ℕ} (x1 x2 : (⟨3, ![1, a, b]⟩ : Shape).Idx → α)
    (h : Shape.Concatenates [⟨3, ![1, a, b]⟩, ⟨3, ![1, a, b]⟩] ⟨3, ![2, a, b]⟩ 0) (i : Fin a) (j : Fin b) :
    concatenate ⟨3, ![2, a, b]⟩ 0 [⟨⟨3, ![1, a, b]⟩, x1⟩, ⟨⟨3, ![1, a, b]⟩, x2⟩] h (ix3 (0 : Fin 2) i j) = x1 (ix3 (0 : Fin 1) i j) := by
  refine concatenate_pair_apply_left 0 x1 x2 h (ix3 (0 : Fin 2) i j) rfl (ix3 (0 : Fin 1) i j) fun ax => ?_
  match ax with
  | ⟨0, _⟩ => rfl
  | ⟨1, _⟩ => rfl
  | ⟨2, _⟩ => rfl

/-- Two matrices stacked: the second. -/
theorem stack2_snd {a b : ℕ} (x1 x2 : (⟨3, ![1, a, b]⟩ : Shape).Idx → α)
    (h : Shape.Concatenates [⟨3, ![1, a, b]⟩, ⟨3, ![1, a, b]⟩] ⟨3, ![2, a, b]⟩ 0) (i : Fin a) (j : Fin b) :
    concatenate ⟨3, ![2, a, b]⟩ 0 [⟨⟨3, ![1, a, b]⟩, x1⟩, ⟨⟨3, ![1, a, b]⟩, x2⟩] h (ix3 (1 : Fin 2) i j) = x2 (ix3 (0 : Fin 1) i j) := by
  refine concatenate_pair_apply_right 0 x1 x2 h (ix3 (1 : Fin 2) i j) rfl rfl (ix3 (0 : Fin 1) i j) (fun ax hne => ?_) rfl
  match ax with
  | ⟨0, _⟩ => exact absurd rfl hne
  | ⟨1, _⟩ => rfl
  | ⟨2, _⟩ => rfl

end Layout

/-! ### The identity mask -/

/-- Comparing the row and column counters of an n × n array for equality gives the bit 1 on the diagonal and 0 off it
    (the counters are below 2³²). -/
theorem iotaEq_read {n : ℕ} (hn : n ≤ 4294967296) (κ : Kind) (h0 : (⟨2, ![n, n]⟩ : Shape).Iotas κ 32 [0])
    (h1 : (⟨2, ![n, n]⟩ : Shape).Iotas κ 32 [1]) (i j : Fin n) :
    cmpi .eq (iota κ ⟨2, ![n, n]⟩ 32 [0] h0) (iota κ ⟨2, ![n, n]⟩ 32 [1] h1) (ix2 i j) = if i = j then 1#1 else 0#1 := by
  show IntOp.cmpi .eq (iota κ ⟨2, ![n, n]⟩ 32 [0] h0 (ix2 i j)) (iota κ ⟨2, ![n, n]⟩ 32 [1] h1 (ix2 i j)) = _
  rw [iota_single_apply, iota_single_apply]
  show BitVec.ofBool (BitVec.ofNat 32 i.val == BitVec.ofNat 32 j.val) = _
  have hi := i.isLt; have hj := j.isLt
  by_cases hij : i = j
  · subst hij; simp
  · rw [if_neg hij]
    have hne : (BitVec.ofNat 32 i.val == BitVec.ofNat 32 j.val) = false := by
      rw [beq_eq_false_iff_ne]
      intro he
      have := congrArg BitVec.toNat he
      simp only [BitVec.toNat_ofNat] at this
      rw [Nat.mod_eq_of_lt (by omega), Nat.mod_eq_of_lt (by omega)] at this
      exact hij (Fin.ext this)
    rw [hne]; rfl

end Cert.Lib.MatRead

end
-- ==== Proof.LibHostMatRead.lean ====
/- Host operations of the ideal float instance read at an entry of a matrix, for any extents: a scalar
   splat, a vector spread over the rows or over the columns through a one-row or one-column matrix by two
   broadcasts, and the one-axis reductions along the rows — the maximum (any commutative, associative
   operation) as a fold from the initial value, the sum as the initial value plus the row's sum. -/
import Idealize.ShloMosaic.PureOps.Ideal
import Idealize.ShloMosaic.PureOps.Ideal.Laws
import Idealize.ShloMosaic.Lib.ValueIdx
import Idealize.ShloMosaic.Lib.Pipeline.Value
import proofs.«152566_j47450798686653_1_alg».proof.Proof.LibMatRead

noncomputable section

namespace Cert.Lib.HostMatRead

open Idealize.ShloMosaic Idealize.ShloMosaic.ValueIdx
open scoped BigOperators

variable {α : Type}

/-- A scalar splat reads the scalar everywhere. -/
theorem splat_read {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun ax => ax.elim0)

/-- A vector made a one-row matrix and repeated down a rows reads, at (i, j), the vector at j. -/
theorem rowBcast_read {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (j : Fin b) :
    broadcastInDim ⟨2, ![a, b]⟩ ![0, 1] h2 (broadcastInDim ⟨2, ![1, b]⟩ ![1] h1 v) (ix2 i j) = v (ix1 j) := by
  refine (broadcastInDim_apply ![0, 1] h2 _ (ix2 i j) (ix2 (0 : Fin 1) j) (fun ax => ?_)).trans
    (broadcastInDim_apply ![1] h1 v (ix2 (0 : Fin 1) j) (ix1 j) (fun ax => ?_))
  · match ax with
    | ⟨0, _⟩ => rfl
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A vector made a one-column matrix and repeated over b columns reads, at (i, j), the vector at i. -/
theorem colBcast_read {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (j : Fin b) :
    broadcastInDim ⟨2, ![a, b]⟩ ![0, 1] h2 (broadcastInDim ⟨2, ![a, 1]⟩ ![0] h1 v) (ix2 i j) = v (ix1 i) := by
  refine (broadcastInDim_apply ![0, 1] h2 _ (ix2 i j) (ix2 i (0 : Fin 1)) (fun ax => ?_)).trans
    (broadcastInDim_apply ![0] h1 v (ix2 i (0 : Fin 1)) (ix1 i) (fun ax => ?_))
  · match ax with
    | ⟨0, _⟩ =>
      show i.val = if a = 1 then 0 else i.val
      split
      · have := i.isLt; omega
      · rfl
    | ⟨1, _⟩ => rfl
  · match ax with
    | ⟨0, _⟩ =>
      show i.val = if a = 1 then 0 else i.val
      split
      · have := i.isLt; omega
      · rfl

/-- A vector made a one-column matrix reads, at (i, 0), the vector at i. -/
theorem col_read {a : ℕ} (v : (⟨1, ![a]⟩ : Shape).Idx → α)
    (h1 : (⟨1, ![a]⟩ : Shape).BroadcastsInDim ⟨2, ![a, 1]⟩ (![0] : Fin 1 → Fin 2)) (i : Fin a) (u : Fin 1) :
    broadcastInDim ⟨2, ![a, 1]⟩ ![0] h1 v (ix2 i u) = v (ix1 i) := by
  refine broadcastInDim_apply ![0] h1 v (ix2 i u) (ix1 i) (fun ax => ?_)
  match ax with
  | ⟨0, _⟩ =>
    show i.val = if a = 1 then 0 else i.val
    split
    · have := i.isLt; omega
    · rfl

/-- A one-column matrix repeated over b columns reads, at (i, j), the column at (i, 0). -/
theorem colRepeat_read {a b : ℕ} (x : (⟨2, ![a, 1]⟩ : Shape).Idx → α)
    (h2 : (⟨2, ![a, 1]⟩ : Shape).BroadcastsInDim ⟨2, ![a, b]⟩ (![0, 1] : Fin 2 → Fin 2)) (i : Fin a) (j : Fin b) :
    broadcastInDim ⟨2, ![a, b]⟩ ![0, 1] h2 x (ix2 i j) = x (ix2 i (0 : Fin 1)) := by
  refine broadcastInDim_apply ![0, 1] h2 x (ix2 i j) (ix2 i (0 : Fin 1)) (fun ax => ?_)
  match ax with
  | ⟨0, _⟩ =>
    show i.val = if a = 1 then 0 else i.val
    split
    · have := i.isLt; omega
    · rfl
  | ⟨1, _⟩ => rfl

/-- The host's reduction of each row by a commutative, associative operation: the fold over the row from the
    initial value. -/
theorem rowFold_read {a b : ℕ} (f : α → α → α) [Std.Commutative f] [Std.Associative f]
    (X : (⟨2, ![a, b]⟩ : Shape).Idx → α) (init : (⟨0, ![]⟩ : Shape).Idx → α)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduce f X init h' hu (ix1 i) = (Finset.univ : Finset (Fin b)).fold f (init ix0) (fun t => X (ix2 i t)) := by
  rw [Host.reduce_eq_fold_single f X init h' h hu (ix1 i)]
  congr 1
  · exact congrArg init (eq_ix0 _)
  · funext t
    exact congrArg X (Cert.Lib.MatRead.lift_row h i t)

/-- The host's sum of each row: the initial value plus the row's sum. -/
theorem rowSum_read {a b : ℕ} {φ : FTy} (X : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduceAdd (F := Ideal) X init h' hu (ix1 i) = init ix0 + ∑ t : Fin b, X (ix2 i t) := by
  show Ideal.hostReduceAdd h' X (init (Shape.Idx.first hu)) (ix1 i) = _
  rw [Ideal.hostReduceAdd_single h' h, show Shape.Idx.first hu = ix0 from eq_ix0 _]
  exact congrArg (init ix0 + ·) (Finset.sum_congr rfl fun t _ => congrArg X (Cert.Lib.MatRead.lift_row h i t))

end Cert.Lib.HostMatRead

end
-- ==== Proof.StagesRead.lean ====
/-
  The reference's dense stages at the ideal instance are the entry-by-entry specification.

  The host's product contracts the left operand's columns with the right operand's rows, so it is `matProd`.
  The bias reaches every row through a one-row matrix, so adding it is `addRow`; the maximum with a splat of
  the zero word is `relu0`.  In the log softmax the row maximum is the fold of `max` over the row from `-∞`,
  and the further maximum with `-∞` changes nothing because a fold from `-∞` is at least `-∞`; each row value
  is spread over the columns through a one-column matrix, and the row sum starts from the zero word, whose
  value is zero.  Composed, the network is `netSpec`: the specification's dense stages around the two
  propagation steps, which stay as they are.
-/
import proofs.«152566_j47450798686653_1_alg».proof.Proof.Stages
import proofs.«152566_j47450798686653_1_alg».proof.Proof.Spec
import proofs.«152566_j47450798686653_1_alg».proof.Proof.LibMatProd
import proofs.«152566_j47450798686653_1_alg».proof.Proof.LibHostMatRead
import Mathlib.Data.Finset.Fold

noncomputable section

namespace Cert.ReferenceIdeal.StagesRead

open Cert.ReferenceIdeal Cert.ReferenceIdeal.Gen Cert.Spec
open Idealize.ShloMosaic Idealize.ShloMosaic.TcCoe Idealize.ShloMosaic.ValueIdx Idealize.SL.Sem Idealize.ShloMosaic.StableHlo
open scoped BigOperators

theorem lin1_eq (x : (⟨S100000x256, .f32⟩ : BufTy).Contents (Elt Ideal)) (w : (⟨S256x16, .f32⟩ : BufTy).Contents (Elt Ideal)) :
    Stages.lin1 (F := Ideal) x w = matProd x w := by
  funext i
  obtain ⟨p, q, rfl⟩ : ∃ (p : Fin 100000) (q : Fin 16), i = ix2 p q := ⟨i 0, i 1, eq_ix2 i⟩
  exact Cert.Lib.MatProd.dotGeneral_read (M := 100000) (K := 256) (N := 16) none _ x w p q

theorem lin2_eq (h : (⟨S100000x16, .f32⟩ : BufTy).Contents (Elt Ideal)) (w : (⟨S16x16, .f32⟩ : BufTy).Contents (Elt Ideal)) :
    Stages.lin2 (F := Ideal) h w = matProd h w := by
  funext i
  obtain ⟨p, q, rfl⟩ : ∃ (p : Fin 100000) (q : Fin 16), i = ix2 p q := ⟨i 0, i 1, eq_ix2 i⟩
  exact Cert.Lib.MatProd.dotGeneral_read (M := 100000) (K := 16) (N := 16) none _ h w p q

theorem addBias_eq (a : (⟨S100000x16, .f32⟩ : BufTy).Contents (Elt Ideal)) (b : (⟨S16, .f32⟩ : BufTy).Contents (Elt Ideal)) :
    Stages.addBias (F := Ideal) a b = addRow a b := by
  funext i
  obtain ⟨p, q, rfl⟩ : ∃ (p : Fin 100000) (q : Fin 16), i = ix2 p q := ⟨i 0, i 1, eq_ix2 i⟩
  exact congrArg (fun u : EReal => a (ix2 p q) + u)
    (Cert.Lib.HostMatRead.rowBcast_read (a := 100000) (b := 16) b bcast_S16_S1x16_1 bcast_S1x16_S100000x16_0_1 p q)

theorem relu_eq (z : (⟨S100000x16, .f32⟩ : BufTy).Contents (Elt Ideal)) : Stages.relu (F := Ideal) z = relu0 z := by
  funext i
  exact congrArg (fun u : EReal => max (z i) u)
    (Cert.Lib.HostMatRead.splat_read bcast_S_S100000x16 (constant (F := Ideal) S_ .f32 0x00000000#32) i)

/-- A fold of `max` from a value is at least that value. -/
theorem le_rowTop (z : (⟨S100000x16, .f32⟩ : BufTy).Contents (Elt Ideal)) (p : Fin 100000) : Ideal.ofBits .f32 0xFF800000#32 ≤ rowTop z p := by
  unfold rowTop
  generalize (Finset.univ : Finset (Fin 16)) = s
  induction s using Finset.induction_on with
  | empty => exact le_of_eq (Finset.fold_empty).symm
  | insert a s ha ih => rw [Finset.fold_insert ha]; exact le_max_of_le_right ih

/-- The float maximum at the ideal instance is the maximum of extended reals: commutative and associative. -/
instance maximumf_comm : Std.Commutative (FloatOps.maximumf (F := Ideal) (φ := FTy.f32)) := ⟨fun a b => max_comm a b⟩
instance maximumf_assoc : Std.Associative (FloatOps.maximumf (F := Ideal) (φ := FTy.f32)) := ⟨fun a b c => max_assoc a b c⟩

/-- The maximum with a smaller value changes nothing. -/
theorem maximumf_of_le (a r : EReal) (h : a ≤ r) : FloatOps.maximumf (F := Ideal) (φ := FTy.f32) a r = r := max_eq_right h

/-- At the ideal instance the float difference is the difference of extended reals. -/
theorem subf_eq (a b : EReal) : FloatOps.subf (F := Ideal) (φ := FTy.f32) a b = a - b := rfl

theorem hostLog_eq (a : EReal) : FloatOps.hostUnary (F := Ideal) (φ := FTy.f32) .log a = Ideal.log a := rfl

theorem hostExp_eq (a : EReal) : FloatOps.hostUnary (F := Ideal) (φ := FTy.f32) .exp a = Ideal.exp a := rfl

/-- The fold of the float maximum over a row is the row's largest entry. -/
theorem fold_eq_rowTop (z : (⟨S100000x16, .f32⟩ : BufTy).Contents (Elt Ideal)) (p : Fin 100000) :
    (Finset.univ : Finset (Fin 16)).fold (FloatOps.maximumf (F := Ideal) (φ := FTy.f32)) (constant (F := Ideal) S_ .f32 0xFF800000#32 ix0) (fun t => z (ix2 p t)) = rowTop z p := rfl

/-- The host's reduction of row `p` by the float maximum, from `-∞`. -/
theorem reduceMax_entry (z : (⟨S100000x16, .f32⟩ : BufTy).Contents (Elt Ideal)) (p : Fin 100000) :
    Host.reduce (FloatOps.maximumf (F := Ideal) (φ := FTy.f32)) z (constant (F := Ideal) S_ .f32 0xFF800000#32) reducesTo_S100000x16_S100000_d1 h_S_ (ix1 p) = rowTop z p :=
  (Cert.Lib.HostMatRead.rowFold_read (a := 100000) (b := 16) (FloatOps.maximumf (F := Ideal) (φ := FTy.f32)) z
    (constant (F := Ideal) S_ .f32 0xFF800000#32) reducesTo_S100000x16_S100000_d1 (by decide) h_S_ p).trans (fold_eq_rowTop z p)

theorem splatNeg_entry (p : Fin 100000) :
    broadcastInDim S100000 ![] bcast_S_S100000 (constant (F := Ideal) S_ .f32 0xFF800000#32) (ix1 p) = Ideal.ofBits .f32 0xFF800000#32 :=
  Cert.Lib.HostMatRead.splat_read bcast_S_S100000 (constant (F := Ideal) S_ .f32 0xFF800000#32) (ix1 p)

theorem rowMax_entry (z : (⟨S100000x16, .f32⟩ : BufTy).Contents (Elt Ideal)) (p : Fin 100000) :
    Stages.rowMax (F := Ideal) z (ix1 p) = rowTop z p := by
  rw [Stages.rowMax_apply, reduceMax_entry, splatNeg_entry]
  exact maximumf_of_le _ _ (le_rowTop z p)

theorem shifted_entry (z : (⟨S100000x16, .f32⟩ : BufTy).Contents (Elt Ideal)) (p : Fin 100000) (q : Fin 16) :
    Stages.shifted (F := Ideal) z (ix2 p q) = z (ix2 p q) - rowTop z p := by
  rw [Stages.shifted_apply, Cert.Lib.HostMatRead.colBcast_read (a := 100000) (b := 16) (Stages.rowMax (F := Ideal) z)
    bcast_S100000_S100000x1_0 bcast_S100000x1_S100000x16_0_1 p q, rowMax_entry]
  exact subf_eq _ _

/-- Each row's sum of exponentials of the shifted entries. -/
theorem expSum_entry (z : (⟨S100000x16, .f32⟩ : BufTy).Contents (Elt Ideal)) (p : Fin 100000) :
    Host.reduceAdd (F := Ideal) (Host.exp (Stages.shifted (F := Ideal) z)) (constant (F := Ideal) S_ .f32 0x00000000#32)
      reducesTo_S100000x16_S100000_d1 h_S_ (ix1 p) = ∑ t : Fin 16, Ideal.exp (z (ix2 p t) - rowTop z p) := by
  rw [Cert.Lib.HostMatRead.rowSum_read (a := 100000) (b := 16) (Host.exp (Stages.shifted (F := Ideal) z))
    (constant (F := Ideal) S_ .f32 0x00000000#32) reducesTo_S100000x16_S100000_d1 (by decide) h_S_ p]
  have h0 : constant (F := Ideal) S_ .f32 0x00000000#32 ix0 = 0 := Ideal.ofBits_zero_f32
  rw [h0, zero_add]
  exact Finset.sum_congr rfl fun t _ => by
    rw [Stages.hostExp_apply, shifted_entry]
    exact hostExp_eq _

/-- The logarithm of each row's sum, spread back over the row's columns. -/
theorem logSum_entry (z : (⟨S100000x16, .f32⟩ : BufTy).Contents (Elt Ideal)) (p : Fin 100000) (q : Fin 16) :
    broadcastInDim S100000x16 ![0, 1] bcast_S100000x1_S100000x16_0_1
        (Host.log (broadcastInDim S100000x1 ![0] bcast_S100000_S100000x1_0
          (Host.reduceAdd (F := Ideal) (Host.exp (Stages.shifted (F := Ideal) z)) (constant (F := Ideal) S_ .f32 0x00000000#32)
            reducesTo_S100000x16_S100000_d1 h_S_))) (ix2 p q)
      = Ideal.log (∑ t : Fin 16, Ideal.exp (z (ix2 p t) - rowTop z p)) := by
  rw [Cert.Lib.HostMatRead.colRepeat_read (a := 100000) (b := 16) _ bcast_S100000x1_S100000x16_0_1 p q,
    Stages.hostLog_apply, Cert.Lib.HostMatRead.col_read (a := 100000) _ bcast_S100000_S100000x1_0 p 0, expSum_entry]
  exact hostLog_eq _

theorem logSoftmax_eq (z : (⟨S100000x16, .f32⟩ : BufTy).Contents (Elt Ideal)) : Stages.logSoftmax (F := Ideal) z = logSoftmaxRows z := by
  funext i
  obtain ⟨p, q, rfl⟩ : ∃ (p : Fin 100000) (q : Fin 16), i = ix2 p q := ⟨i 0, i 1, eq_ix2 i⟩
  unfold Stages.logSoftmax
  rw [Stages.logSoftmaxOf_apply, shifted_entry, logSum_entry, logSoftmaxRows_ix2]
  exact subf_eq _ _

/-- The network with its dense stages read entry by entry; the propagation steps stay as they are. -/
def netSpec (x : (⟨S100000x256, .f32⟩ : BufTy).Contents (Elt Ideal)) (e : (⟨S2x3200000, .i32⟩ : BufTy).Contents (Elt Ideal))
    (w1 : (⟨S256x16, .f32⟩ : BufTy).Contents (Elt Ideal)) (b1 : (⟨S16, .f32⟩ : BufTy).Contents (Elt Ideal)) (w2 : (⟨S16x16, .f32⟩ : BufTy).Contents (Elt Ideal)) (b2 : (⟨S16, .f32⟩ : BufTy).Contents (Elt Ideal)) : (⟨S100000x16, .f32⟩ : BufTy).Contents (Elt Ideal) :=
  logSoftmaxRows (addRow (Stages.agg (F := Ideal) e
    (matProd (relu0 (addRow (Stages.agg (F := Ideal) e (matProd x w1)) b1)) w2)) b2)

theorem network_eq (x : (⟨S100000x256, .f32⟩ : BufTy).Contents (Elt Ideal)) (e : (⟨S2x3200000, .i32⟩ : BufTy).Contents (Elt Ideal))
    (w1 : (⟨S256x16, .f32⟩ : BufTy).Contents (Elt Ideal)) (b1 : (⟨S16, .f32⟩ : BufTy).Contents (Elt Ideal)) (w2 : (⟨S16x16, .f32⟩ : BufTy).Contents (Elt Ideal)) (b2 : (⟨S16, .f32⟩ : BufTy).Contents (Elt Ideal)) :
    Stages.network (F := Ideal) x e w1 b1 w2 b2 = netSpec x e w1 b1 w2 b2 := by
  unfold Stages.network Stages.hidden netSpec
  rw [lin1_eq, addBias_eq, relu_eq, lin2_eq, addBias_eq, logSoftmax_eq]

end Cert.ReferenceIdeal.StagesRead

end
-- ==== Proof.RegProduct1.lean ====
/-
  The first product's region: what its output array holds when it ends.

  The region runs 20 points; point `t` reads rows `5000·t … 5000·t + 4999` of the 100000 × 256 left operand, the
  whole 256 × 16 right operand, and writes the same rows of the 100000 × 16 output.  At entry `(p, q)` of a
  block the body's product, accumulated into zeros, is the sum over `s` of `left (p, s) · right (s, q)` (the
  narrowing of both operands to a shorter float format changes nothing at the ideal instance).  Row `p` of
  block `t` is row `5000·t + p` of the array and every row lies in the block of `row / 5000`, so the array ends
  as the product of the two arrays the region finds.
-/
import proofs.«152566_j47450798686653_1_alg».proof.Proof.Gen.KernelIdeal.Frame
import proofs.«152566_j47450798686653_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«152566_j47450798686653_1_alg».proof.Proof.LibMatProd

set_option maxRecDepth 16384

noncomputable section

namespace Cert.KernelIdeal.Product1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The body at entry `(p, q)` of a block: the sum over `s` of `left (p, s) · right (s, q)`. -/
theorem body_entry (x0 : Vec Ideal S5000x256 .f32) (x1 : Vec Ideal S256x16 .f32) (p : Fin 5000) (q : Fin 16) :
    k0_pay1 (F := Ideal) x0 x1 (ix2 p q) = ∑ s : Fin 256, x0 (ix2 p s) * x1 (ix2 s q) := by
  unfold k0_pay1
  exact Cert.Lib.MatProd.matmul_zero_read (M := 5000) (K := 256) (N := 16) none
    (truncf .bf16 x0 _) (truncf .bf16 x1 _) p q

/-- The index maps over the grid: left operand and output blocks are numbered by the point along the rows,
    the right operand has its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the output is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of the product of the two arrays. -/
theorem flushed_eq (c : Dev nD) (t : Fin cfg0.N) :
    (dat0 (F := Ideal) V c).flushed 2 t = ((cfg0.win 2).blk t).view.read (Elt Ideal)
      (matProd (V c main_arg0 : S100000x256.Idx → EReal) (V c main_arg2 : S256x16.Idx → EReal)) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x16) origin]
  obtain ⟨e0, e1, e2, e3, e4, e5⟩ := idx_facts t
  funext j
  obtain ⟨p, q, rfl⟩ : ∃ (p : Fin 5000) (q : Fin 16), j = ix2 p q := ⟨j 0, j 1, eq_ix2 j⟩
  show k0_pay1 (iblk0 V c 0 t) (iblk0 V c 1 t) (ix2 p q)
    = matProd (V c main_arg0 : S100000x256.Idx → EReal) (V c main_arg2 : S256x16.Idx → EReal) (((cfg0.win 2).blk t).view.emb (ix2 p q))
  refine (body_entry _ _ p q).trans (Eq.trans ?_ (matProd_apply (V c main_arg0 : S100000x256.Idx → EReal) (V c main_arg2 : S256x16.Idx → EReal) _).symm)
  refine Finset.sum_congr rfl fun s _ => ?_
  have h0 : ((cfg0.win 0).blk t).view.emb (ix2 p s) = ix2 ((((cfg0.win 2).blk t).view.emb (ix2 p q)) 0) s := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * s.val = s.val; omega
  have h1 : ((cfg0.win 1).blk t).view.emb (ix2 s q) = ix2 s ((((cfg0.win 2).blk t).view.emb (ix2 p q)) 1) := by
    funext a; apply Fin.ext
    match a with
    | ⟨0, _⟩ => show win0_1.index t (0 : Fin 2) * 256 + 1 * s.val = s.val; omega
    | ⟨1, _⟩ => show win0_1.index t (1 : Fin 2) * 16 + 1 * q.val = win0_2.index t (1 : Fin 2) * 16 + 1 * q.val; omega
  exact congrArg₂ (fun u v : EReal => u * v)
    (congrArg (V c main_arg0 : S100000x256.Idx → EReal) h0) (congrArg (V c main_arg2 : S256x16.Idx → EReal) h1)

/-- An index of the output array is in point `t`'s block iff each coordinate is in the block's range. -/
theorem mem_blk (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v30).slice (win0_2.rect t)).set ↔ _
  rw [View.set_slice_whole, Rect.mem_set_unit]
  exact Iff.rfl

/-- Every row of the output lies in the block of `row / 5000`. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- The output array after the region. -/
theorem final (c : Dev nD) :
    (dat0 (F := Ideal) V c).arrAt 2 cfg0.N
      = matProd (V c main_arg0 : S100000x256.Idx → EReal) (V c main_arg2 : S256x16.Idx → EReal) :=
  (dat0 V c).arrAt_eq_of_cover 2 _ (fun t _ => flushed_eq V c t) (cover)

end Cert.KernelIdeal.Product1

end
-- ==== Proof.RegBiasRelu.lean ====
/-
  The bias-and-relu region: what its output array holds when it ends.

  The region runs ten points; point `t` reads rows `10000·t … 10000·t + 9999` of the 100000 × 16 input, the
  one row of the 1 × 16 bias, and writes the same rows of the output.  At an entry `(p, q)` of a block the body
  computes `max (a (p, q) + b (0, q)) 0`: the casts are to the blocks' own shapes and the broadcast repeats the
  bias row down the block.  Row `p` of block `t` is row `10000·t + p` of the array, every row lies in the
  block of `row / 10000`, so the array ends as `relu0 (addRow a (rowOf b))` of the arrays the region finds.
-/
import proofs.«152566_j47450798686653_1_alg».proof.Proof.Gen.KernelIdeal.Frame
import proofs.«152566_j47450798686653_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body at entry `(p, q)` of a block: the input's entry plus the bias row's entry of column `q`,
    against zero. -/
theorem body_entry (x0 : Vec Ideal S10000x16 .f32) (x1 : Vec Ideal S1x16 .f32) (p : Fin 10000) (q : Fin 16) :
    k1_pay1 (F := Ideal) x0 x1 (ix2 p q)
      = max (x0 (ix2 p q) + x1 (ix2 (0 : Fin 1) q)) (Ideal.ofBits .f32 0x00000000#32) := by
  unfold k1_pay1
  show max (shapeCast S10000x16 x0 _ (ix2 p q) + broadcastTo S10000x16 (shapeCast S1x16 x1 _) _ (ix2 p q))
      (Ideal.ofBits .f32 0x00000000#32) = _
  rw [shapeCast_self, shapeCast_self]
  exact congrArg (fun u => max (x0 (ix2 p q) + u) (Ideal.ofBits .f32 0x00000000#32)) (broadcastTo_1b_ab_apply x1 _ p q)

/-- The index maps over the grid: input and output blocks are numbered by the point along the rows, the
    bias has its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block row of the output is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of `relu0 (addRow a (rowOf b))`. -/
theorem flushed_eq (c : Dev nD) (t : Fin cfg1.N) :
    (dat1 (F := Ideal) V c).flushed 2 t = ((cfg1.win 2).blk t).view.read (Elt Ideal)
      (relu0 (addRow (V c main_v43) (rowOf (V c main_v44)))) := by
  show (cfg1.win 2).cut (grid1.coords t) ((dat1 V c).after 2 t) = _
  rw [after1_2]
  unfold out1_2
  rw [View.canon_unit_zero origin]
  simp only [View.ld_unit_zero (S := S10000x16) origin, View.ld_unit_zero (S := S1x16) origin]
  obtain ⟨e0, e1, e2, e3, e4, e5⟩ := idx_facts t
  funext j
  obtain ⟨p, q, rfl⟩ : ∃ (p : Fin 10000) (q : Fin 16), j = ix2 p q := ⟨j 0, j 1, eq_ix2 j⟩
  show k1_pay1 (iblk1 V c 0 t) (iblk1 V c 1 t) (ix2 p q)
    = relu0 (addRow (V c main_v43) (rowOf (V c main_v44))) (((cfg1.win 2).blk t).view.emb (ix2 p q))
  refine (body_entry _ _ p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 16 + 1 * q.val = win1_2.index t (1 : Fin 2) * 16 + 1 * q.val; omega
  have h1 : ((cfg1.win 1).blk t).view.emb (ix2 (0 : Fin 1) q)
      = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 16 + 1 * q.val = win1_2.index t (1 : Fin 2) * 16 + 1 * q.val; omega
  exact congrArg₂ (fun u v : EReal => max (u + v) (Ideal.ofBits .f32 0x00000000#32))
    (congrArg (V c main_v43 : S100000x16.Idx → EReal) h0) (congrArg (V c main_v44 : S1x16.Idx → EReal) h1)

/-- An index of the output array is in point `t`'s block iff each coordinate is in the block's range. -/
theorem mem_blk (t : Fin cfg1.N) (i : S100000x16.Idx) :
    i ∈ ((cfg1.win 2).blk t).view.set ↔ ∀ a : Fin 2, win1_2.index t a * S10000x16.size a ≤ (i a).val
      ∧ (i a).val < win1_2.index t a * S10000x16.size a + S10000x16.size a := by
  show i ∈ ((View.whole main_v45).slice (win1_2.rect t)).set ↔ _
  rw [View.set_slice_whole, Rect.mem_set_unit]
  exact Iff.rfl

/-- Every row of the output lies in the block of `row / 10000`. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- The output array after the region. -/
theorem final (c : Dev nD) :
    (dat1 (F := Ideal) V c).arrAt 2 cfg1.N = relu0 (addRow (V c main_v43) (rowOf (V c main_v44))) :=
  (dat1 V c).arrAt_eq_of_cover 2 _ (fun t _ => flushed_eq V c t) (cover)

end Cert.KernelIdeal.BiasRelu

end
-- ==== Proof.RegProduct2.lean ====
/-
  The second product's region: what its output array holds when it ends.

  The region runs 10 points; point `t` reads rows `10000·t … 10000·t + 9999` of the 100000 × 16 left operand, the
  whole 16 × 16 right operand, and writes the same rows of the 100000 × 16 output.  At entry `(p, q)` of a
  block the body's product, accumulated into zeros, is the sum over `s` of `left (p, s) · right (s, q)` (the
  cast of the left block to its own shape and the narrowing of both operands to a shorter float format change
  nothing at the ideal instance).  Row `p` of
  block `t` is row `10000·t + p` of the array and every row lies in the block of `row / 10000`, so the array ends
  as the product of the two arrays the region finds.
-/
import proofs.«152566_j47450798686653_1_alg».proof.Proof.Gen.KernelIdeal.Frame
import proofs.«152566_j47450798686653_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«152566_j47450798686653_1_alg».proof.Proof.LibMatProd

set_option maxRecDepth 16384

noncomputable section

namespace Cert.KernelIdeal.Product2

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- The body at entry `(p, q)` of a block: the sum over `s` of `left (p, s) · right (s, q)`. -/
theorem body_entry (x0 : Vec Ideal S10000x16 .f32) (x1 : Vec Ideal S16x16 .f32) (p : Fin 10000) (q : Fin 16) :
    k2_pay1 (F := Ideal) x0 x1 (ix2 p q) = ∑ s : Fin 16, x0 (ix2 p s) * x1 (ix2 s q) := by
  unfold k2_pay1
  refine (Cert.Lib.MatProd.matmul_zero_read (M := 10000) (K := 16) (N := 16) none
    (truncf .bf16 (shapeCast S10000x16 x0 shapeCasts_S10000x16_S10000x16) _) (truncf .bf16 x1 _) p q).trans ?_
  rw [shapeCast_self]
  rfl

/-- The index maps over the grid: left operand and output blocks are numbered by the point along the rows,
    the right operand has its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block row of the output is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the product of the two arrays. -/
theorem flushed_eq (c : Dev nD) (t : Fin cfg2.N) :
    (dat2 (F := Ideal) V c).flushed 2 t = ((cfg2.win 2).blk t).view.read (Elt Ideal)
      (matProd (V c main_v45 : S100000x16.Idx → EReal) (V c main_arg4 : S16x16.Idx → EReal)) := by
  show (cfg2.win 2).cut (grid2.coords t) ((dat2 V c).after 2 t) = _
  rw [after2_2]
  unfold out2_2
  rw [View.canon_unit_zero origin]
  simp only [View.ld_unit_zero (S := S10000x16) origin, View.ld_unit_zero (S := S16x16) origin]
  obtain ⟨e0, e1, e2, e3, e4, e5⟩ := idx_facts t
  funext j
  obtain ⟨p, q, rfl⟩ : ∃ (p : Fin 10000) (q : Fin 16), j = ix2 p q := ⟨j 0, j 1, eq_ix2 j⟩
  show k2_pay1 (iblk2 V c 0 t) (iblk2 V c 1 t) (ix2 p q)
    = matProd (V c main_v45 : S100000x16.Idx → EReal) (V c main_arg4 : S16x16.Idx → EReal) (((cfg2.win 2).blk t).view.emb (ix2 p q))
  refine (body_entry _ _ p q).trans (Eq.trans ?_ (matProd_apply (V c main_v45 : S100000x16.Idx → EReal) (V c main_arg4 : S16x16.Idx → EReal) _).symm)
  refine Finset.sum_congr rfl fun s _ => ?_
  have h0 : ((cfg2.win 0).blk t).view.emb (ix2 p s) = ix2 ((((cfg2.win 2).blk t).view.emb (ix2 p q)) 0) s := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 16 + 1 * s.val = s.val; omega
  have h1 : ((cfg2.win 1).blk t).view.emb (ix2 s q) = ix2 s ((((cfg2.win 2).blk t).view.emb (ix2 p q)) 1) := by
    funext a; apply Fin.ext
    match a with
    | ⟨0, _⟩ => show win2_1.index t (0 : Fin 2) * 16 + 1 * s.val = s.val; omega
    | ⟨1, _⟩ => show win2_1.index t (1 : Fin 2) * 16 + 1 * q.val = win2_2.index t (1 : Fin 2) * 16 + 1 * q.val; omega
  exact congrArg₂ (fun u v : EReal => u * v)
    (congrArg (V c main_v45 : S100000x16.Idx → EReal) h0) (congrArg (V c main_arg4 : S16x16.Idx → EReal) h1)

/-- An index of the output array is in point `t`'s block iff each coordinate is in the block's range. -/
theorem mem_blk (t : Fin cfg2.N) (i : S100000x16.Idx) :
    i ∈ ((cfg2.win 2).blk t).view.set ↔ ∀ a : Fin 2, win2_2.index t a * S10000x16.size a ≤ (i a).val
      ∧ (i a).val < win2_2.index t a * S10000x16.size a + S10000x16.size a := by
  show i ∈ ((View.whole main_v46).slice (win2_2.rect t)).set ↔ _
  rw [View.set_slice_whole, Rect.mem_set_unit]
  exact Iff.rfl

/-- Every row of the output lies in the block of `row / 10000`. -/
theorem cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 16 ≤ (i 1).val ∧ (i 1).val < win2_2.index t (1 : Fin 2) * 16 + 16; omega

/-- The output array after the region. -/
theorem final (c : Dev nD) :
    (dat2 (F := Ideal) V c).arrAt 2 cfg2.N
      = matProd (V c main_v45 : S100000x16.Idx → EReal) (V c main_arg4 : S16x16.Idx → EReal) :=
  (dat2 V c).arrAt_eq_of_cover 2 _ (fun t _ => flushed_eq V c t) (cover)

end Cert.KernelIdeal.Product2

end
-- ==== Proof.RegBiasLogSoftmax.lean ====
/-
  The bias-and-log-softmax region: what its output array holds when it ends.

  The region runs ten points; point `t` reads rows `10000·t … 10000·t + 9999` of the 100000 × 16 input, the
  one row of the 1 × 16 bias, and writes the same rows of the output.  With `z = a + b` (the bias row repeated
  down the block) the body computes, at entry `(p, q)`,

      (z (p, q) − M p) − log Σ_s exp (z (p, s) − M p),      M p = the largest entry of row p of z,

  the row maximum folded from `-∞`, each row value spread back over the 16 columns through a one-column
  matrix.  This is `logSoftmaxRows z` at `(p, q)`, which looks at row `p` of `z` only; row `p` of block `t`
  is row `10000·t + p` of the array, and every row lies in the block of `row / 10000`.  So the array ends as
  `logSoftmaxRows (addRow a (rowOf b))` of the arrays the region finds.
-/
import proofs.«152566_j47450798686653_1_alg».proof.Proof.Gen.KernelIdeal.Frame
import proofs.«152566_j47450798686653_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«152566_j47450798686653_1_alg».proof.Proof.LibMatRead

set_option maxRecDepth 16384

noncomputable section

namespace Cert.KernelIdeal.BiasLogSoftmax

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem origin : (![0, 0] : Fin 2 → Nat) = fun _ => 0 := funext fun a => by fin_cases a <;> rfl

/-- Each row's largest entry, spread back over the row's 16 columns. -/
def spreadTop (z : FVec Ideal S10000x16 .f32) : FVec Ideal S10000x16 .f32 :=
  broadcastTo S10000x16 (shapeCast S10000x1
    (multiReduction (F := Ideal) .maximumf [1] S10000 z 0xFF800000#32 reduces_S10000x16_S10000 (.inl rfl) rfl)
    shapeCasts_S10000_S10000x1) broadcasts_S10000x1_S10000x16

/-- Each row's sum of exponentials of the shifted entries. -/
def expSum (z : FVec Ideal S10000x16 .f32) : FVec Ideal S10000 .f32 :=
  multiReduction (F := Ideal) .add [1] S10000 (exp (subf z (spreadTop z))) 0x00000000#32 reduces_S10000x16_S10000 (.inl rfl) rfl

/-- The body's arithmetic once the bias is added, as a function of the biased block. -/
def core (z : FVec Ideal S10000x16 .f32) : FVec Ideal S10000x16 .f32 :=
  subf (subf z (spreadTop z))
    (broadcastTo S10000x16 (log (shapeCast S10000x1 (expSum z) shapeCasts_S10000_S10000x1)) broadcasts_S10000x1_S10000x16)

/-- The block with the bias row added to every row. -/
def biased (x0 : Vec Ideal S10000x16 .f32) (x1 : Vec Ideal S1x16 .f32) : FVec Ideal S10000x16 .f32 :=
  addf (shapeCast S10000x16 x0 shapeCasts_S10000x16_S10000x16)
    (broadcastTo S10000x16 (shapeCast S1x16 x1 shapeCasts_S1x16_S1x16) broadcasts_S1x16_S10000x16)

theorem body_is_core (x0 : Vec Ideal S10000x16 .f32) (x1 : Vec Ideal S1x16 .f32) :
    k3_pay1 (F := Ideal) x0 x1 = core (biased x0 x1) := rfl

/-- The biased block at an entry. -/
theorem biased_entry (x0 : Vec Ideal S10000x16 .f32) (x1 : Vec Ideal S1x16 .f32) (p : Fin 10000) (s : Fin 16) :
    biased x0 x1 (ix2 p s) = x0 (ix2 p s) + x1 (ix2 (0 : Fin 1) s) := by
  show shapeCast S10000x16 x0 _ (ix2 p s) + broadcastTo S10000x16 (shapeCast S1x16 x1 _) _ (ix2 p s) = _
  rw [shapeCast_self, shapeCast_self]
  exact congrArg (fun u => x0 (ix2 p s) + u) (broadcastTo_1b_ab_apply x1 _ p s)

/-- The spread row maximum at an entry is the row's largest entry. -/
theorem spreadTop_entry (z : FVec Ideal S10000x16 .f32) (p : Fin 10000) (q : Fin 16) :
    spreadTop z (ix2 p q) = rowTop z p :=
  (Cert.Lib.MatRead.colBcast_read (a := 10000) (b := 16) _ _ _ p q).trans
    (Cert.Lib.MatRead.rowMax_read (a := 10000) (b := 16) z 0xFF800000#32 _ (.inl rfl) rfl p)

/-- The row sums of exponentials, at a row. -/
theorem expSum_entry (z : FVec Ideal S10000x16 .f32) (p : Fin 10000) :
    expSum z (ix1 p) = ∑ s : Fin 16, Ideal.exp (z (ix2 p s) - rowTop z p) :=
  (Cert.Lib.MatRead.rowSum_read (a := 10000) (b := 16) (exp (subf z (spreadTop z))) 0x00000000#32 _ (.inl rfl) rfl p).trans
    (Finset.sum_congr rfl fun s _ => congrArg (fun u => Ideal.exp (z (ix2 p s) - u)) (spreadTop_entry z p s))

/-- The body's arithmetic at an entry is the row-wise log softmax of the biased block there. -/
theorem core_entry (z : FVec Ideal S10000x16 .f32) (p : Fin 10000) (q : Fin 16) :
    core z (ix2 p q) = logSoftmaxRows z (ix2 p q) := by
  have hlog : broadcastTo S10000x16 (log (shapeCast S10000x1 (expSum z) shapeCasts_S10000_S10000x1)) broadcasts_S10000x1_S10000x16 (ix2 p q)
      = Ideal.log (∑ s : Fin 16, Ideal.exp (z (ix2 p s) - rowTop z p)) :=
    (Cert.Lib.MatRead.colBcast_read (a := 10000) (b := 16) (fun k => Ideal.log (expSum z k)) shapeCasts_S10000_S10000x1
      broadcasts_S10000x1_S10000x16 p q).trans (congrArg Ideal.log (expSum_entry z p))
  exact congrArg₂ (fun u v : EReal => (z (ix2 p q) - u) - v) (spreadTop_entry z p q) hlog

/-- The index maps over the grid: input and output blocks are numbered by the point along the rows, the
    bias has its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every block row of the output is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point `t` writes back is block `t` of `logSoftmaxRows (addRow a (rowOf b))`. -/
theorem flushed_eq (c : Dev nD) (t : Fin cfg3.N) :
    (dat3 (F := Ideal) V c).flushed 2 t = ((cfg3.win 2).blk t).view.read (Elt Ideal)
      (logSoftmaxRows (addRow (V c main_v59 : S100000x16.Idx → EReal) (rowOf (V c main_v60 : S1x16.Idx → EReal)))) := by
  show (cfg3.win 2).cut (grid3.coords t) ((dat3 V c).after 2 t) = _
  rw [after3_2]
  unfold out3_2
  rw [View.canon_unit_zero origin]
  simp only [View.ld_unit_zero (S := S10000x16) origin, View.ld_unit_zero (S := S1x16) origin]
  obtain ⟨e0, e1, e2, e3, e4, e5⟩ := idx_facts t
  funext j
  obtain ⟨p, q, rfl⟩ : ∃ (p : Fin 10000) (q : Fin 16), j = ix2 p q := ⟨j 0, j 1, eq_ix2 j⟩
  show k3_pay1 (iblk3 V c 0 t) (iblk3 V c 1 t) (ix2 p q)
    = logSoftmaxRows (addRow (V c main_v59 : S100000x16.Idx → EReal) (rowOf (V c main_v60 : S1x16.Idx → EReal)))
        (((cfg3.win 2).blk t).view.emb (ix2 p q))
  have hi : ((cfg3.win 2).blk t).view.emb (ix2 p q) = ix2 ((((cfg3.win 2).blk t).view.emb (ix2 p q)) 0) q := by
    funext a; apply Fin.ext
    match a with
    | ⟨0, _⟩ => rfl
    | ⟨1, _⟩ => show win3_2.index t (1 : Fin 2) * 16 + 1 * q.val = q.val; omega
  refine ((congrFun (body_is_core _ _) (ix2 p q)).trans (core_entry _ p q)).trans
    (Eq.trans ?_ (congrArg (logSoftmaxRows (addRow (V c main_v59 : S100000x16.Idx → EReal) (rowOf (V c main_v60 : S1x16.Idx → EReal)))) hi).symm)
  refine logSoftmaxRows_row_congr _ _ p _ (fun s => ?_) q
  refine (biased_entry _ _ p s).trans ?_
  have h0 : ((cfg3.win 0).blk t).view.emb (ix2 p s) = ix2 ((((cfg3.win 2).blk t).view.emb (ix2 p q)) 0) s := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 16 + 1 * s.val = s.val; omega
  have h1 : ((cfg3.win 1).blk t).view.emb (ix2 (0 : Fin 1) s) = ix2 (0 : Fin 1) s := by
    funext a; apply Fin.ext
    match a with
    | ⟨0, _⟩ => show win3_1.index t (0 : Fin 2) * 1 + 1 * 0 = 0; omega
    | ⟨1, _⟩ => show win3_1.index t (1 : Fin 2) * 16 + 1 * s.val = s.val; omega
  exact congrArg₂ (fun u v : EReal => u + v)
    (congrArg (V c main_v59 : S100000x16.Idx → EReal) h0) (congrArg (V c main_v60 : S1x16.Idx → EReal) h1)

/-- An index of the output array is in point `t`'s block iff each coordinate is in the block's range. -/
theorem mem_blk (t : Fin cfg3.N) (i : S100000x16.Idx) :
    i ∈ ((cfg3.win 2).blk t).view.set ↔ ∀ a : Fin 2, win3_2.index t a * S10000x16.size a ≤ (i a).val
      ∧ (i a).val < win3_2.index t a * S10000x16.size a + S10000x16.size a := by
  show i ∈ ((View.whole main_v61).slice (win3_2.rect t)).set ↔ _
  rw [View.set_slice_whole, Rect.mem_set_unit]
  exact Iff.rfl

/-- Every row of the output lies in the block of `row / 10000`. -/
theorem cover (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 16 ≤ (i 1).val ∧ (i 1).val < win3_2.index t (1 : Fin 2) * 16 + 16; omega

/-- The output array after the region. -/
theorem final (c : Dev nD) :
    (dat3 (F := Ideal) V c).arrAt 2 cfg3.N
      = logSoftmaxRows (addRow (V c main_v59 : S100000x16.Idx → EReal) (rowOf (V c main_v60 : S1x16.Idx → EReal))) :=
  (dat3 V c).arrAt_eq_of_cover 2 _ (fun t _ => flushed_eq V c t) (cover)

end Cert.KernelIdeal.BiasLogSoftmax

end
-- ==== Proof.KValue.lean ====
/-
  The kernel program's result, read back through its segments.

  At the end of the run the result buffer holds what the fold of the nine segments over the launch memory
  gives it.  Each stretch of host operations is read over whatever contents it finds: the first three write,
  from the edge table alone, the edge list's sources and targets, the degree's positivity mask and inverse
  square root, then `dinv`, then the weights; the stretch after the first region writes one propagation step
  over that region's output and makes the first bias a one-row matrix; the stretch before the last region does
  the same with the second product's output and the second bias.  Every host operation of the kernel program
  is, with the same constants, an operation of the reference's stages, so each stretch's result is the stage's
  value.  A region leaves its output array at its specification of the arrays it finds and touches nothing
  else.  The sources, targets and weights are written once, before the first region, and neither they nor the
  arguments are written again, so each is found unchanged wherever it is read.  Boundary by boundary this
  gives the result buffer as `netSpec` of the arguments as launched.
-/
import proofs.«152566_j47450798686653_1_alg».proof.Proof.Gen.KernelIdeal.Frame
import proofs.«152566_j47450798686653_1_alg».proof.Proof.Stages
import proofs.«152566_j47450798686653_1_alg».proof.Proof.StagesRead
import proofs.«152566_j47450798686653_1_alg».proof.Proof.Spec
import proofs.«152566_j47450798686653_1_alg».proof.Proof.RegProduct1
import proofs.«152566_j47450798686653_1_alg».proof.Proof.RegBiasRelu
import proofs.«152566_j47450798686653_1_alg».proof.Proof.RegProduct2
import proofs.«152566_j47450798686653_1_alg».proof.Proof.RegBiasLogSoftmax
import Idealize.ShloMosaic.Lib.StableHlo.Run
import Idealize.ShloMosaic.Lib.ValueLayout
import Idealize.ShloMosaic.PureOps.Ideal

set_option maxRecDepth 16384

noncomputable section

namespace Cert.KernelIdeal.Fold

open Cert.KernelIdeal Cert.KernelIdeal.Gen Cert.Spec
open Idealize.ShloMosaic Idealize.ShloMosaic.TcCoe Idealize.ShloMosaic.ValueIdx Idealize.SL.Sem Idealize.ShloMosaic.StableHlo

/-- A vector made a one-row matrix has that vector as its row. -/
theorem rowOf_cast (b : (⟨1, ![16]⟩ : Shape).Idx → EReal) (h : (⟨1, ![16]⟩ : Shape).ShapeCasts ⟨2, ![1, 16]⟩) :
    rowOf (shapeCast ⟨2, ![1, 16]⟩ b h) = b := by
  funext j
  obtain ⟨q, rfl⟩ : ∃ q : Fin 16, j = ix1 q := ⟨j 0, eq_ix1 j⟩
  exact shapeCast_a_1a_apply b h 0 q

/-! ## Each stretch of host operations, over the contents it finds -/

section Stretches

variable (V : Valuation τ sig (Elt Ideal))

theorem s0_v3 : StableHlo.after hostOps0 V (Proc.devRef .tc main_v3) = Cert.ReferenceIdeal.Stages.srcIdx (F := Ideal) (V (Proc.devRef .tc main_arg1)) := by
  after_results <;> rfl

theorem s0_v6 : StableHlo.after hostOps0 V (Proc.devRef .tc main_v6) = Cert.ReferenceIdeal.Stages.dstIdx (F := Ideal) (V (Proc.devRef .tc main_arg1)) := by
  after_results <;> rfl

theorem s0_v12 : StableHlo.after hostOps0 V (Proc.devRef .tc main_v12) = cmpf .ogt (Cert.ReferenceIdeal.Stages.deg (F := Ideal) (V (Proc.devRef .tc main_arg1))) (broadcastInDim S100000 ![] bcast_S_S100000 (constant (F := Ideal) S_ .f32 0x00000000#32)) := by
  after_results <;> rfl

theorem s0_v13 : StableHlo.after hostOps0 V (Proc.devRef .tc main_v13) = Host.rsqrt (F := Ideal) (s := S100000) (φ := .f32) (Cert.ReferenceIdeal.Stages.deg (F := Ideal) (V (Proc.devRef .tc main_arg1))) := by
  after_results <;> rfl

theorem s0_cst_2 : StableHlo.after hostOps0 V (Proc.devRef .tc main_cst_2) = constant (F := Ideal) S_ .f32 0x00000000#32 := by
  after_results <;> rfl

theorem s0_keep_arg0 : StableHlo.after hostOps0 V (Proc.devRef .tc main_arg0) = V (Proc.devRef .tc main_arg0) := by
  after_results <;> rfl

theorem s0_keep_arg1 : StableHlo.after hostOps0 V (Proc.devRef .tc main_arg1) = V (Proc.devRef .tc main_arg1) := by
  after_results <;> rfl

theorem s0_keep_arg2 : StableHlo.after hostOps0 V (Proc.devRef .tc main_arg2) = V (Proc.devRef .tc main_arg2) := by
  after_results <;> rfl

theorem s0_keep_arg3 : StableHlo.after hostOps0 V (Proc.devRef .tc main_arg3) = V (Proc.devRef .tc main_arg3) := by
  after_results <;> rfl

theorem s0_keep_arg4 : StableHlo.after hostOps0 V (Proc.devRef .tc main_arg4) = V (Proc.devRef .tc main_arg4) := by
  after_results <;> rfl

theorem s0_keep_arg5 : StableHlo.after hostOps0 V (Proc.devRef .tc main_arg5) = V (Proc.devRef .tc main_arg5) := by
  after_results <;> rfl

theorem s1_v14 : StableHlo.after hostOps0_1 V (Proc.devRef .tc main_v14) = Cert.ReferenceIdeal.Stages.dinvOf (F := Ideal) (V (Proc.devRef .tc main_v12)) (V (Proc.devRef .tc main_v13)) (V (Proc.devRef .tc main_cst_2)) := by
  after_results <;> rfl

theorem s1_keep_v3 : StableHlo.after hostOps0_1 V (Proc.devRef .tc main_v3) = V (Proc.devRef .tc main_v3) := by
  after_results <;> rfl

theorem s1_keep_v6 : StableHlo.after hostOps0_1 V (Proc.devRef .tc main_v6) = V (Proc.devRef .tc main_v6) := by
  after_results <;> rfl

theorem s1_keep_arg0 : StableHlo.after hostOps0_1 V (Proc.devRef .tc main_arg0) = V (Proc.devRef .tc main_arg0) := by
  after_results <;> rfl

theorem s1_keep_arg1 : StableHlo.after hostOps0_1 V (Proc.devRef .tc main_arg1) = V (Proc.devRef .tc main_arg1) := by
  after_results <;> rfl

theorem s1_keep_arg2 : StableHlo.after hostOps0_1 V (Proc.devRef .tc main_arg2) = V (Proc.devRef .tc main_arg2) := by
  after_results <;> rfl

theorem s1_keep_arg3 : StableHlo.after hostOps0_1 V (Proc.devRef .tc main_arg3) = V (Proc.devRef .tc main_arg3) := by
  after_results <;> rfl

theorem s1_keep_arg4 : StableHlo.after hostOps0_1 V (Proc.devRef .tc main_arg4) = V (Proc.devRef .tc main_arg4) := by
  after_results <;> rfl

theorem s1_keep_arg5 : StableHlo.after hostOps0_1 V (Proc.devRef .tc main_arg5) = V (Proc.devRef .tc main_arg5) := by
  after_results <;> rfl

set_option maxHeartbeats 2000000 in
theorem s2_v29 : StableHlo.after hostOps0_2 V (Proc.devRef .tc main_v29) = Cert.ReferenceIdeal.Stages.nrmOf (F := Ideal) (V (Proc.devRef .tc main_v14)) (V (Proc.devRef .tc main_v3)) (V (Proc.devRef .tc main_v6)) := by
  after_results_simp <;> rfl

theorem s2_keep_v3 : StableHlo.after hostOps0_2 V (Proc.devRef .tc main_v3) = V (Proc.devRef .tc main_v3) := by
  after_results <;> rfl

theorem s2_keep_v6 : StableHlo.after hostOps0_2 V (Proc.devRef .tc main_v6) = V (Proc.devRef .tc main_v6) := by
  after_results <;> rfl

theorem s2_keep_arg0 : StableHlo.after hostOps0_2 V (Proc.devRef .tc main_arg0) = V (Proc.devRef .tc main_arg0) := by
  after_results <;> rfl

theorem s2_keep_arg1 : StableHlo.after hostOps0_2 V (Proc.devRef .tc main_arg1) = V (Proc.devRef .tc main_arg1) := by
  after_results <;> rfl

theorem s2_keep_arg2 : StableHlo.after hostOps0_2 V (Proc.devRef .tc main_arg2) = V (Proc.devRef .tc main_arg2) := by
  after_results <;> rfl

theorem s2_keep_arg3 : StableHlo.after hostOps0_2 V (Proc.devRef .tc main_arg3) = V (Proc.devRef .tc main_arg3) := by
  after_results <;> rfl

theorem s2_keep_arg4 : StableHlo.after hostOps0_2 V (Proc.devRef .tc main_arg4) = V (Proc.devRef .tc main_arg4) := by
  after_results <;> rfl

theorem s2_keep_arg5 : StableHlo.after hostOps0_2 V (Proc.devRef .tc main_arg5) = V (Proc.devRef .tc main_arg5) := by
  after_results <;> rfl

set_option maxHeartbeats 2000000 in
theorem s3_v43 : StableHlo.after hostOps1 V (Proc.devRef .tc main_v43) = Cert.ReferenceIdeal.Stages.aggOf (F := Ideal) (V (Proc.devRef .tc main_v3)) (V (Proc.devRef .tc main_v6)) (V (Proc.devRef .tc main_v29)) (V (Proc.devRef .tc main_v30)) := by
  after_results_simp <;> rfl

theorem s3_v44 : StableHlo.after hostOps1 V (Proc.devRef .tc main_v44) = shapeCast S1x16 (V (Proc.devRef .tc main_arg3)) shapeCasts_S16_S1x16 := by
  after_results <;> rfl

theorem s3_keep_v3 : StableHlo.after hostOps1 V (Proc.devRef .tc main_v3) = V (Proc.devRef .tc main_v3) := by
  after_results <;> rfl

theorem s3_keep_v6 : StableHlo.after hostOps1 V (Proc.devRef .tc main_v6) = V (Proc.devRef .tc main_v6) := by
  after_results <;> rfl

theorem s3_keep_v29 : StableHlo.after hostOps1 V (Proc.devRef .tc main_v29) = V (Proc.devRef .tc main_v29) := by
  after_results <;> rfl

theorem s3_keep_arg4 : StableHlo.after hostOps1 V (Proc.devRef .tc main_arg4) = V (Proc.devRef .tc main_arg4) := by
  after_results <;> rfl

theorem s3_keep_arg5 : StableHlo.after hostOps1 V (Proc.devRef .tc main_arg5) = V (Proc.devRef .tc main_arg5) := by
  after_results <;> rfl

set_option maxHeartbeats 2000000 in
theorem s4_v59 : StableHlo.after hostOps3 V (Proc.devRef .tc main_v59) = Cert.ReferenceIdeal.Stages.aggOf (F := Ideal) (V (Proc.devRef .tc main_v3)) (V (Proc.devRef .tc main_v6)) (V (Proc.devRef .tc main_v29)) (V (Proc.devRef .tc main_v46)) := by
  after_results_simp <;> rfl

theorem s4_v60 : StableHlo.after hostOps3 V (Proc.devRef .tc main_v60) = shapeCast S1x16 (V (Proc.devRef .tc main_arg5)) shapeCasts_S16_S1x16 := by
  after_results <;> rfl

end Stretches

/-! ## The contents at each boundary -/

variable (m : (ℓ : Loc nD τ sig) → Buf (Elt Ideal) ℓ) (ρ : Dev nD → PrngReg) (c : Dev nD)

/-! ### Before the first region -/

theorem src1 : W1 m ρ c (Proc.devRef .tc main_v3) = Cert.ReferenceIdeal.Stages.srcIdx (F := Ideal) (m ((c : Thread nD τ).loc main_arg1)) := s0_v3 (W0 m ρ c)
theorem dst1 : W1 m ρ c (Proc.devRef .tc main_v6) = Cert.ReferenceIdeal.Stages.dstIdx (F := Ideal) (m ((c : Thread nD τ).loc main_arg1)) := s0_v6 (W0 m ρ c)
theorem pos1 : W1 m ρ c (Proc.devRef .tc main_v12) = cmpf .ogt (Cert.ReferenceIdeal.Stages.deg (F := Ideal) (m ((c : Thread nD τ).loc main_arg1))) (broadcastInDim S100000 ![] bcast_S_S100000 (constant (F := Ideal) S_ .f32 0x00000000#32)) := s0_v12 (W0 m ρ c)
theorem rs1 : W1 m ρ c (Proc.devRef .tc main_v13) = Host.rsqrt (F := Ideal) (s := S100000) (φ := .f32) (Cert.ReferenceIdeal.Stages.deg (F := Ideal) (m ((c : Thread nD τ).loc main_arg1))) := s0_v13 (W0 m ρ c)
theorem cst1 : W1 m ρ c (Proc.devRef .tc main_cst_2) = constant (F := Ideal) S_ .f32 0x00000000#32 := s0_cst_2 (W0 m ρ c)
theorem arg0_1 : W1 m ρ c (Proc.devRef .tc main_arg0) = m ((c : Thread nD τ).loc main_arg0) := s0_keep_arg0 (W0 m ρ c)
theorem arg1_1 : W1 m ρ c (Proc.devRef .tc main_arg1) = m ((c : Thread nD τ).loc main_arg1) := s0_keep_arg1 (W0 m ρ c)
theorem arg2_1 : W1 m ρ c (Proc.devRef .tc main_arg2) = m ((c : Thread nD τ).loc main_arg2) := s0_keep_arg2 (W0 m ρ c)
theorem arg3_1 : W1 m ρ c (Proc.devRef .tc main_arg3) = m ((c : Thread nD τ).loc main_arg3) := s0_keep_arg3 (W0 m ρ c)
theorem arg4_1 : W1 m ρ c (Proc.devRef .tc main_arg4) = m ((c : Thread nD τ).loc main_arg4) := s0_keep_arg4 (W0 m ρ c)
theorem arg5_1 : W1 m ρ c (Proc.devRef .tc main_arg5) = m ((c : Thread nD τ).loc main_arg5) := s0_keep_arg5 (W0 m ρ c)

theorem dinv2 : W2 m ρ c (Proc.devRef .tc main_v14) = Cert.ReferenceIdeal.Stages.dinv (F := Ideal) (m ((c : Thread nD τ).loc main_arg1)) :=
  (s1_v14 (W1 m ρ c)).trans (by rw [pos1, rs1, cst1]; rfl)
theorem src2 : W2 m ρ c (Proc.devRef .tc main_v3) = Cert.ReferenceIdeal.Stages.srcIdx (F := Ideal) (m ((c : Thread nD τ).loc main_arg1)) := (s1_keep_v3 (W1 m ρ c)).trans (src1 m ρ c)
theorem dst2 : W2 m ρ c (Proc.devRef .tc main_v6) = Cert.ReferenceIdeal.Stages.dstIdx (F := Ideal) (m ((c : Thread nD τ).loc main_arg1)) := (s1_keep_v6 (W1 m ρ c)).trans (dst1 m ρ c)
theorem arg0_2 : W2 m ρ c (Proc.devRef .tc main_arg0) = m ((c : Thread nD τ).loc main_arg0) := (s1_keep_arg0 (W1 m ρ c)).trans (arg0_1 m ρ c)
theorem arg1_2 : W2 m ρ c (Proc.devRef .tc main_arg1) = m ((c : Thread nD τ).loc main_arg1) := (s1_keep_arg1 (W1 m ρ c)).trans (arg1_1 m ρ c)
theorem arg2_2 : W2 m ρ c (Proc.devRef .tc main_arg2) = m ((c : Thread nD τ).loc main_arg2) := (s1_keep_arg2 (W1 m ρ c)).trans (arg2_1 m ρ c)
theorem arg3_2 : W2 m ρ c (Proc.devRef .tc main_arg3) = m ((c : Thread nD τ).loc main_arg3) := (s1_keep_arg3 (W1 m ρ c)).trans (arg3_1 m ρ c)
theorem arg4_2 : W2 m ρ c (Proc.devRef .tc main_arg4) = m ((c : Thread nD τ).loc main_arg4) := (s1_keep_arg4 (W1 m ρ c)).trans (arg4_1 m ρ c)
theorem arg5_2 : W2 m ρ c (Proc.devRef .tc main_arg5) = m ((c : Thread nD τ).loc main_arg5) := (s1_keep_arg5 (W1 m ρ c)).trans (arg5_1 m ρ c)

theorem nrm3 : W3 m ρ c (Proc.devRef .tc main_v29) = Cert.ReferenceIdeal.Stages.nrm (F := Ideal) (m ((c : Thread nD τ).loc main_arg1)) :=
  (s2_v29 (W2 m ρ c)).trans (by rw [dinv2, src2, dst2]; rfl)
theorem src3 : W3 m ρ c (Proc.devRef .tc main_v3) = Cert.ReferenceIdeal.Stages.srcIdx (F := Ideal) (m ((c : Thread nD τ).loc main_arg1)) := (s2_keep_v3 (W2 m ρ c)).trans (src2 m ρ c)
theorem dst3 : W3 m ρ c (Proc.devRef .tc main_v6) = Cert.ReferenceIdeal.Stages.dstIdx (F := Ideal) (m ((c : Thread nD τ).loc main_arg1)) := (s2_keep_v6 (W2 m ρ c)).trans (dst2 m ρ c)
theorem arg0_3 : W3 m ρ c (Proc.devRef .tc main_arg0) = m ((c : Thread nD τ).loc main_arg0) := (s2_keep_arg0 (W2 m ρ c)).trans (arg0_2 m ρ c)
theorem arg1_3 : W3 m ρ c (Proc.devRef .tc main_arg1) = m ((c : Thread nD τ).loc main_arg1) := (s2_keep_arg1 (W2 m ρ c)).trans (arg1_2 m ρ c)
theorem arg2_3 : W3 m ρ c (Proc.devRef .tc main_arg2) = m ((c : Thread nD τ).loc main_arg2) := (s2_keep_arg2 (W2 m ρ c)).trans (arg2_2 m ρ c)
theorem arg3_3 : W3 m ρ c (Proc.devRef .tc main_arg3) = m ((c : Thread nD τ).loc main_arg3) := (s2_keep_arg3 (W2 m ρ c)).trans (arg3_2 m ρ c)
theorem arg4_3 : W3 m ρ c (Proc.devRef .tc main_arg4) = m ((c : Thread nD τ).loc main_arg4) := (s2_keep_arg4 (W2 m ρ c)).trans (arg4_2 m ρ c)
theorem arg5_3 : W3 m ρ c (Proc.devRef .tc main_arg5) = m ((c : Thread nD τ).loc main_arg5) := (s2_keep_arg5 (W2 m ρ c)).trans (arg5_2 m ρ c)

/-! ### The first product's region and the stretch after it -/

theorem prod4 : W4 m ρ c (Proc.devRef .tc main_v30) = matProd (m ((c : Thread nD τ).loc main_arg0)) (m ((c : Thread nD τ).loc main_arg2)) := by
  refine (W4_arr m ρ c 2).trans ((Product1.final (V3 m ρ) c).trans ?_)
  show matProd (W3 m ρ c (Proc.devRef .tc main_arg0)) (W3 m ρ c (Proc.devRef .tc main_arg2)) = _
  rw [arg0_3, arg2_3]
theorem src4 : W4 m ρ c (Proc.devRef .tc main_v3) = Cert.ReferenceIdeal.Stages.srcIdx (F := Ideal) (m ((c : Thread nD τ).loc main_arg1)) := (W4_of_ne m ρ c main_v3 (by decide)).trans (src3 m ρ c)
theorem dst4 : W4 m ρ c (Proc.devRef .tc main_v6) = Cert.ReferenceIdeal.Stages.dstIdx (F := Ideal) (m ((c : Thread nD τ).loc main_arg1)) := (W4_of_ne m ρ c main_v6 (by decide)).trans (dst3 m ρ c)
theorem nrm4 : W4 m ρ c (Proc.devRef .tc main_v29) = Cert.ReferenceIdeal.Stages.nrm (F := Ideal) (m ((c : Thread nD τ).loc main_arg1)) := (W4_of_ne m ρ c main_v29 (by decide)).trans (nrm3 m ρ c)
theorem arg3_4 : W4 m ρ c (Proc.devRef .tc main_arg3) = m ((c : Thread nD τ).loc main_arg3) := (W4_of_ne m ρ c main_arg3 (by decide)).trans (arg3_3 m ρ c)
theorem arg4_4 : W4 m ρ c (Proc.devRef .tc main_arg4) = m ((c : Thread nD τ).loc main_arg4) := (W4_of_ne m ρ c main_arg4 (by decide)).trans (arg4_3 m ρ c)
theorem arg5_4 : W4 m ρ c (Proc.devRef .tc main_arg5) = m ((c : Thread nD τ).loc main_arg5) := (W4_of_ne m ρ c main_arg5 (by decide)).trans (arg5_3 m ρ c)

theorem agg5 : W5 m ρ c (Proc.devRef .tc main_v43) = Cert.ReferenceIdeal.Stages.agg (F := Ideal) (m ((c : Thread nD τ).loc main_arg1)) (matProd (m ((c : Thread nD τ).loc main_arg0)) (m ((c : Thread nD τ).loc main_arg2))) :=
  (s3_v43 (W4 m ρ c)).trans (by rw [src4, dst4, nrm4, prod4]; rfl)
theorem bias5 : W5 m ρ c (Proc.devRef .tc main_v44) = shapeCast S1x16 (m ((c : Thread nD τ).loc main_arg3)) shapeCasts_S16_S1x16 :=
  (s3_v44 (W4 m ρ c)).trans (by rw [arg3_4])
theorem src5 : W5 m ρ c (Proc.devRef .tc main_v3) = Cert.ReferenceIdeal.Stages.srcIdx (F := Ideal) (m ((c : Thread nD τ).loc main_arg1)) := (s3_keep_v3 (W4 m ρ c)).trans (src4 m ρ c)
theorem dst5 : W5 m ρ c (Proc.devRef .tc main_v6) = Cert.ReferenceIdeal.Stages.dstIdx (F := Ideal) (m ((c : Thread nD τ).loc main_arg1)) := (s3_keep_v6 (W4 m ρ c)).trans (dst4 m ρ c)
theorem nrm5 : W5 m ρ c (Proc.devRef .tc main_v29) = Cert.ReferenceIdeal.Stages.nrm (F := Ideal) (m ((c : Thread nD τ).loc main_arg1)) := (s3_keep_v29 (W4 m ρ c)).trans (nrm4 m ρ c)
theorem arg4_5 : W5 m ρ c (Proc.devRef .tc main_arg4) = m ((c : Thread nD τ).loc main_arg4) := (s3_keep_arg4 (W4 m ρ c)).trans (arg4_4 m ρ c)
theorem arg5_5 : W5 m ρ c (Proc.devRef .tc main_arg5) = m ((c : Thread nD τ).loc main_arg5) := (s3_keep_arg5 (W4 m ρ c)).trans (arg5_4 m ρ c)

/-! ### The bias-and-relu region and the second product's region -/

/-- The hidden layer, with its dense stages read entry by entry. -/
def hiddenSpec : S100000x16.Idx → EReal :=
  relu0 (addRow (Cert.ReferenceIdeal.Stages.agg (F := Ideal) (m ((c : Thread nD τ).loc main_arg1)) (matProd (m ((c : Thread nD τ).loc main_arg0)) (m ((c : Thread nD τ).loc main_arg2)))) (m ((c : Thread nD τ).loc main_arg3)))

theorem hidden6 : W6 m ρ c (Proc.devRef .tc main_v45) = hiddenSpec m c := by
  refine (W6_arr m ρ c 2).trans ((BiasRelu.final (V5 m ρ) c).trans ?_)
  show relu0 (addRow (W5 m ρ c (Proc.devRef .tc main_v43)) (rowOf (W5 m ρ c (Proc.devRef .tc main_v44)))) = _
  rw [agg5, bias5, rowOf_cast]
  rfl
theorem src6 : W6 m ρ c (Proc.devRef .tc main_v3) = Cert.ReferenceIdeal.Stages.srcIdx (F := Ideal) (m ((c : Thread nD τ).loc main_arg1)) := (W6_of_ne m ρ c main_v3 (by decide)).trans (src5 m ρ c)
theorem dst6 : W6 m ρ c (Proc.devRef .tc main_v6) = Cert.ReferenceIdeal.Stages.dstIdx (F := Ideal) (m ((c : Thread nD τ).loc main_arg1)) := (W6_of_ne m ρ c main_v6 (by decide)).trans (dst5 m ρ c)
theorem nrm6 : W6 m ρ c (Proc.devRef .tc main_v29) = Cert.ReferenceIdeal.Stages.nrm (F := Ideal) (m ((c : Thread nD τ).loc main_arg1)) := (W6_of_ne m ρ c main_v29 (by decide)).trans (nrm5 m ρ c)
theorem arg4_6 : W6 m ρ c (Proc.devRef .tc main_arg4) = m ((c : Thread nD τ).loc main_arg4) := (W6_of_ne m ρ c main_arg4 (by decide)).trans (arg4_5 m ρ c)
theorem arg5_6 : W6 m ρ c (Proc.devRef .tc main_arg5) = m ((c : Thread nD τ).loc main_arg5) := (W6_of_ne m ρ c main_arg5 (by decide)).trans (arg5_5 m ρ c)

theorem prod7 : W7 m ρ c (Proc.devRef .tc main_v46) = matProd (hiddenSpec m c) (m ((c : Thread nD τ).loc main_arg4)) := by
  refine (W7_arr m ρ c 2).trans ((Product2.final (V6 m ρ) c).trans ?_)
  show matProd (W6 m ρ c (Proc.devRef .tc main_v45)) (W6 m ρ c (Proc.devRef .tc main_arg4)) = _
  rw [hidden6, arg4_6]
theorem src7 : W7 m ρ c (Proc.devRef .tc main_v3) = Cert.ReferenceIdeal.Stages.srcIdx (F := Ideal) (m ((c : Thread nD τ).loc main_arg1)) := (W7_of_ne m ρ c main_v3 (by decide)).trans (src6 m ρ c)
theorem dst7 : W7 m ρ c (Proc.devRef .tc main_v6) = Cert.ReferenceIdeal.Stages.dstIdx (F := Ideal) (m ((c : Thread nD τ).loc main_arg1)) := (W7_of_ne m ρ c main_v6 (by decide)).trans (dst6 m ρ c)
theorem nrm7 : W7 m ρ c (Proc.devRef .tc main_v29) = Cert.ReferenceIdeal.Stages.nrm (F := Ideal) (m ((c : Thread nD τ).loc main_arg1)) := (W7_of_ne m ρ c main_v29 (by decide)).trans (nrm6 m ρ c)
theorem arg5_7 : W7 m ρ c (Proc.devRef .tc main_arg5) = m ((c : Thread nD τ).loc main_arg5) := (W7_of_ne m ρ c main_arg5 (by decide)).trans (arg5_6 m ρ c)

/-! ### The last stretch and the last region -/

theorem agg8 : W8 m ρ c (Proc.devRef .tc main_v59) = Cert.ReferenceIdeal.Stages.agg (F := Ideal) (m ((c : Thread nD τ).loc main_arg1)) (matProd (hiddenSpec m c) (m ((c : Thread nD τ).loc main_arg4))) :=
  (s4_v59 (W7 m ρ c)).trans (by rw [src7, dst7, nrm7, prod7]; rfl)
theorem bias8 : W8 m ρ c (Proc.devRef .tc main_v60) = shapeCast S1x16 (m ((c : Thread nD τ).loc main_arg5)) shapeCasts_S16_S1x16 :=
  (s4_v60 (W7 m ρ c)).trans (by rw [arg5_7])

/-- The result buffer at the end of the run: the network of the arguments as launched. -/
theorem result : W9 m ρ c (Proc.devRef .tc main_v61)
    = Cert.ReferenceIdeal.StagesRead.netSpec (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (W9_arr m ρ c 2).trans ((BiasLogSoftmax.final (V8 m ρ) c).trans ?_)
  show logSoftmaxRows (addRow (W8 m ρ c (Proc.devRef .tc main_v59)) (rowOf (W8 m ρ c (Proc.devRef .tc main_v60)))) = _
  rw [agg8, bias8, rowOf_cast]
  rfl

end Cert.KernelIdeal.Fold

end
-- ==== Proof.RefLine.lean ====
/-
  The reference program's run.

  The reference is one straight line of 98 host operations (the operations of the three functions it calls
  standing in their calls' places).  Run from any memory with zero counters, every weakly fair execution
  ends, and every buffer then holds the fold of the operations' results over the launch contents: each
  operation writes its pure function of buffers written earlier and leaves the rest.  The line is cut into
  thirteen segments, each a stage of the network, so that the fold can be read one segment at a time.
-/
import proofs.«152566_j47450798686653_1_alg».proof.Proof.Gen.ReferenceIdeal
import Idealize.ShloMosaic.Lib.StableHlo.Run

noncomputable section

namespace Cert.ReferenceIdeal.RefLine

open Cert.ReferenceIdeal Cert.ReferenceIdeal.Gen Idealize.ShloMosaic Idealize.ShloMosaic.TcCoe Idealize.SL.Sem Idealize.ShloMosaic.StableHlo

variable {F : FTy → Type} [FloatOps F]

/-- The program's 98 operations, in order. -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)),
    binary main_arg0 main_arg2 main_v30 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x16 ![0, 1] bcast_S3300000x1_S3300000x16_0_1 : (⟨S3300000x1, .f32⟩ : BufTy).Contents (Elt F) → (⟨S3300000x16, .f32⟩ : BufTy).Contents (Elt F)),
    binary main_v55 main_v57 main_v58 (mulf : (⟨S3300000x16, .f32⟩ : BufTy).Contents (Elt F) → (⟨S3300000x16, .f32⟩ : BufTy).Contents (Elt F) → (⟨S3300000x16, .f32⟩ : BufTy).Contents (Elt F)),
    nullary main_cst_11 (constant S_ .f32 0x00000000#32),
    unary main_cst_11 main_v59 (broadcastInDim S100000x16 ![] bcast_S_S100000x16 : (⟨S_, .f32⟩ : BufTy).Contents (Elt F) → (⟨S100000x16, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg5 main_v62 (broadcastInDim S1x16 ![1] bcast_S16_S1x16_1 : (⟨S16, .f32⟩ : BufTy).Contents (Elt F) → (⟨S1x16, .f32⟩ : BufTy).Contents (Elt F)),
    unary main_v62 main_v63 (broadcastInDim S100000x16 ![0, 1] bcast_S1x16_S100000x16_0_1 : (⟨S1x16, .f32⟩ : BufTy).Contents (Elt F) → (⟨S100000x16, .f32⟩ : BufTy).Contents (Elt F)),
    binary main_v61 main_v63 main_v64 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call2_cst) (constant S_ .f32 0xFF800000#32),
    TRef.binary (TRef.of (T := ⟨S100000x16, .f32⟩) main_v64) (TRef.of (T := ⟨S_, .f32⟩) main_call2_cst) (TRef.of (T := ⟨S100000, .f32⟩) main_call2_v0) (fun x v => Host.reduce FloatOps.maximumf x v reducesTo_S100000x16_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v64) (TRef.of (T := ⟨S100000x16, .f32⟩) main_call2_v4) (TRef.of (T := ⟨S100000x16, .f32⟩) main_call2_v5) subf,
    TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v65) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The line in thirteen segments -/

/-- The edge list's sources and targets, the degree, its positivity mask and inverse square root. -/
abbrev segA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- `dinv`: the inlined selection. -/
abbrev segB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The weights of the edge list's entries. -/
abbrev segC : List (HloOp τ sig (Elt F)) :=
  [ nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- The first product. -/
abbrev segD : List (HloOp τ sig (Elt F)) :=
  [ binary main_arg0 main_arg2 main_v30 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)) ]

/-- The first propagation step and the first bias. -/
abbrev segE : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)) ]

/-- The inlined maximum with zero. -/
abbrev segF : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]

/-- The second product. -/
abbrev segG : List (HloOp τ sig (Elt F)) :=
  [ binary main_v47 main_arg4 main_v48 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)) ]

/-- The second propagation step and the second bias. -/
abbrev segH : List (HloOp τ sig (Elt F)) :=
  [ nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x16 ![0, 1] bcast_S3300000x1_S3300000x16_0_1 : (⟨S3300000x1, .f32⟩ : BufTy).Contents (Elt F) → (⟨S3300000x16, .f32⟩ : BufTy).Contents (Elt F)),
    binary main_v55 main_v57 main_v58 (mulf : (⟨S3300000x16, .f32⟩ : BufTy).Contents (Elt F) → (⟨S3300000x16, .f32⟩ : BufTy).Contents (Elt F) → (⟨S3300000x16, .f32⟩ : BufTy).Contents (Elt F)),
    nullary main_cst_11 (constant S_ .f32 0x00000000#32),
    unary main_cst_11 main_v59 (broadcastInDim S100000x16 ![] bcast_S_S100000x16 : (⟨S_, .f32⟩ : BufTy).Contents (Elt F) → (⟨S100000x16, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg5 main_v62 (broadcastInDim S1x16 ![1] bcast_S16_S1x16_1 : (⟨S16, .f32⟩ : BufTy).Contents (Elt F) → (⟨S1x16, .f32⟩ : BufTy).Contents (Elt F)),
    unary main_v62 main_v63 (broadcastInDim S100000x16 ![0, 1] bcast_S1x16_S100000x16_0_1 : (⟨S1x16, .f32⟩ : BufTy).Contents (Elt F) → (⟨S100000x16, .f32⟩ : BufTy).Contents (Elt F)),
    binary main_v61 main_v63 main_v64 (addf : (⟨S100000x16, .f32⟩ : BufTy).Contents (Elt F) → (⟨S100000x16, .f32⟩ : BufTy).Contents (Elt F) → (⟨S100000x16, .f32⟩ : BufTy).Contents (Elt F)) ]

/-- The inlined log softmax: each row's largest entry. -/
abbrev segI1 : List (HloOp τ sig (Elt F)) :=
  [ TRef.nullary (TRef.of (T := ⟨S_, .f32⟩) main_call2_cst) (constant S_ .f32 0xFF800000#32),
    TRef.binary (TRef.of (T := ⟨S100000x16, .f32⟩) main_v64) (TRef.of (T := ⟨S_, .f32⟩) main_call2_cst) (TRef.of (T := ⟨S100000, .f32⟩) main_call2_v0) (fun x v => Host.reduce FloatOps.maximumf x v reducesTo_S100000x16_S100000_d1 h_S_) ]

/-- The inlined log softmax: the largest entry against `-∞`. -/
abbrev segI2 : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

/-- The inlined log softmax: each row minus its largest entry. -/
abbrev segI3 : List (HloOp τ sig (Elt F)) :=
  [ TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x16, .f32⟩) main_call2_v4) (broadcastInDim S100000x16 ![0, 1] bcast_S100000x1_S100000x16_0_1),
    TRef.binary (TRef.of (T := ⟨S100000x16, .f32⟩) main_v64) (TRef.of (T := ⟨S100000x16, .f32⟩) main_call2_v4) (TRef.of (T := ⟨S100000x16, .f32⟩) main_call2_v5) subf ]

/-- The inlined log softmax: each row's sum of exponentials. -/
abbrev segJ1 : List (HloOp τ sig (Elt F)) :=
  [ TRef.unary (TRef.of (T := ⟨S100000x16, .f32⟩) main_call2_v5) (TRef.of (T := ⟨S100000x16, .f32⟩) main_call2_v6) Host.exp,
    TRef.nullary (TRef.of (T := ⟨S_, .f32⟩) main_call2_cst_1) (constant S_ .f32 0x00000000#32),
    TRef.binary (TRef.of (T := ⟨S100000x16, .f32⟩) main_call2_v6) (TRef.of (T := ⟨S_, .f32⟩) main_call2_cst_1) (TRef.of (T := ⟨S100000, .f32⟩) main_call2_v7) (fun x v => Host.reduceAdd x v reducesTo_S100000x16_S100000_d1 h_S_) ]

/-- The inlined log softmax: minus the logarithm of the row's sum. -/
abbrev segJ2 : List (HloOp τ sig (Elt F)) :=
  [ TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x16, .f32⟩) main_call2_v10) (broadcastInDim S100000x16 ![0, 1] bcast_S100000x1_S100000x16_0_1),
    TRef.binary (TRef.of (T := ⟨S100000x16, .f32⟩) main_call2_v5) (TRef.of (T := ⟨S100000x16, .f32⟩) main_call2_v10) (TRef.of (T := ⟨S100000x16, .f32⟩) main_v65) subf ]

set_option maxRecDepth 8192 in
/-- The line is its segments one after the other. -/
theorem ops_eq : (ops : List (HloOp τ sig (Elt F))) = segA ++ (segB ++ (segC ++ (segD ++ (segE ++ (segF ++ (segG ++ (segH ++ (segI1 ++ (segI2 ++ (segI3 ++ (segJ1 ++ (segJ2)))))))))))) := rfl

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- On every device, at any float interpretation, from any memory with zero counters: every weakly fair
    execution of the reference terminates with every buffer at the fold of the operations over the launch
    contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefLine

end
-- ==== Proof.RefValue.lean ====
/-
  The reference program's result, read one segment at a time.

  Each segment is read over whatever contents it finds: its result buffer holds the segment's stage of the
  buffers it reads, and every buffer it does not write is as it was.  The first three segments compute, from
  the edge table alone, the edge list's sources and targets and then its weights; the remaining ones are the
  first product, the first propagation step with its bias, the maximum with zero, the second product, the
  second propagation step with its bias, and the row-wise log softmax in five short pieces.  The sources, targets and weights and
  the arguments are never written again, so each is found unchanged wherever it is read, and boundary by
  boundary the result buffer comes out as `Stages.network` of the arguments as launched.
-/
import proofs.«152566_j47450798686653_1_alg».proof.Proof.RefLine
import proofs.«152566_j47450798686653_1_alg».proof.Proof.Stages

set_option maxRecDepth 16384

noncomputable section

namespace Cert.ReferenceIdeal.RefValue

open Cert.ReferenceIdeal Cert.ReferenceIdeal.Gen Cert.ReferenceIdeal.RefLine
open Idealize.ShloMosaic Idealize.ShloMosaic.TcCoe Idealize.SL.Sem Idealize.ShloMosaic.StableHlo

variable {F : FTy → Type} [FloatOps F]

/-! ## Each segment, over the contents it finds -/

section Segments

variable (V : Valuation τ sig (Elt F))

theorem a_v3 : after segA V (Proc.devRef .tc main_v3) = Stages.srcIdx (F := F) (V (Proc.devRef .tc main_arg1)) := by
  after_results <;> rfl

theorem a_v6 : after segA V (Proc.devRef .tc main_v6) = Stages.dstIdx (F := F) (V (Proc.devRef .tc main_arg1)) := by
  after_results <;> rfl

theorem a_v12 : after segA V (Proc.devRef .tc main_v12) = cmpf .ogt (Stages.deg (F := F) (V (Proc.devRef .tc main_arg1))) (broadcastInDim S100000 ![] bcast_S_S100000 (constant (F := F) S_ .f32 0x00000000#32)) := by
  after_results <;> rfl

theorem a_v13 : after segA V (Proc.devRef .tc main_v13) = Host.rsqrt (F := F) (s := S100000) (φ := .f32) (Stages.deg (F := F) (V (Proc.devRef .tc main_arg1))) := by
  after_results <;> rfl

theorem a_cst_2 : after segA V (Proc.devRef .tc main_cst_2) = constant (F := F) S_ .f32 0x00000000#32 := by
  after_results <;> rfl

theorem a_keep_arg0 : after segA V (Proc.devRef .tc main_arg0) = V (Proc.devRef .tc main_arg0) := by
  after_results <;> rfl

theorem a_keep_arg2 : after segA V (Proc.devRef .tc main_arg2) = V (Proc.devRef .tc main_arg2) := by
  after_results <;> rfl

theorem a_keep_arg3 : after segA V (Proc.devRef .tc main_arg3) = V (Proc.devRef .tc main_arg3) := by
  after_results <;> rfl

theorem a_keep_arg4 : after segA V (Proc.devRef .tc main_arg4) = V (Proc.devRef .tc main_arg4) := by
  after_results <;> rfl

theorem a_keep_arg5 : after segA V (Proc.devRef .tc main_arg5) = V (Proc.devRef .tc main_arg5) := by
  after_results <;> rfl

theorem b_v14 : after segB V (Proc.devRef .tc main_v14) = Stages.dinvOf (F := F) (V (Proc.devRef .tc main_v12)) (V (Proc.devRef .tc main_v13)) (V (Proc.devRef .tc main_cst_2)) := by
  after_results <;> rfl

theorem b_keep_v3 : after segB V (Proc.devRef .tc main_v3) = V (Proc.devRef .tc main_v3) := by
  after_results <;> rfl

theorem b_keep_v6 : after segB V (Proc.devRef .tc main_v6) = V (Proc.devRef .tc main_v6) := by
  after_results <;> rfl

theorem b_keep_arg0 : after segB V (Proc.devRef .tc main_arg0) = V (Proc.devRef .tc main_arg0) := by
  after_results <;> rfl

theorem b_keep_arg2 : after segB V (Proc.devRef .tc main_arg2) = V (Proc.devRef .tc main_arg2) := by
  after_results <;> rfl

theorem b_keep_arg3 : after segB V (Proc.devRef .tc main_arg3) = V (Proc.devRef .tc main_arg3) := by
  after_results <;> rfl

theorem b_keep_arg4 : after segB V (Proc.devRef .tc main_arg4) = V (Proc.devRef .tc main_arg4) := by
  after_results <;> rfl

theorem b_keep_arg5 : after segB V (Proc.devRef .tc main_arg5) = V (Proc.devRef .tc main_arg5) := by
  after_results <;> rfl

set_option maxHeartbeats 2000000 in
theorem c_v29 : after segC V (Proc.devRef .tc main_v29) = Stages.nrmOf (F := F) (V (Proc.devRef .tc main_v14)) (V (Proc.devRef .tc main_v3)) (V (Proc.devRef .tc main_v6)) := by
  after_results_simp <;> rfl

theorem c_keep_v3 : after segC V (Proc.devRef .tc main_v3) = V (Proc.devRef .tc main_v3) := by
  after_results <;> rfl

theorem c_keep_v6 : after segC V (Proc.devRef .tc main_v6) = V (Proc.devRef .tc main_v6) := by
  after_results <;> rfl

theorem c_keep_arg0 : after segC V (Proc.devRef .tc main_arg0) = V (Proc.devRef .tc main_arg0) := by
  after_results <;> rfl

theorem c_keep_arg2 : after segC V (Proc.devRef .tc main_arg2) = V (Proc.devRef .tc main_arg2) := by
  after_results <;> rfl

theorem c_keep_arg3 : after segC V (Proc.devRef .tc main_arg3) = V (Proc.devRef .tc main_arg3) := by
  after_results <;> rfl

theorem c_keep_arg4 : after segC V (Proc.devRef .tc main_arg4) = V (Proc.devRef .tc main_arg4) := by
  after_results <;> rfl

theorem c_keep_arg5 : after segC V (Proc.devRef .tc main_arg5) = V (Proc.devRef .tc main_arg5) := by
  after_results <;> rfl

theorem d_v30 : after segD V (Proc.devRef .tc main_v30) = Stages.lin1 (F := F) (V (Proc.devRef .tc main_arg0)) (V (Proc.devRef .tc main_arg2)) := by
  after_results <;> rfl

theorem d_keep_v3 : after segD V (Proc.devRef .tc main_v3) = V (Proc.devRef .tc main_v3) := by
  after_results <;> rfl

theorem d_keep_v6 : after segD V (Proc.devRef .tc main_v6) = V (Proc.devRef .tc main_v6) := by
  after_results <;> rfl

theorem d_keep_v29 : after segD V (Proc.devRef .tc main_v29) = V (Proc.devRef .tc main_v29) := by
  after_results <;> rfl

theorem d_keep_arg3 : after segD V (Proc.devRef .tc main_arg3) = V (Proc.devRef .tc main_arg3) := by
  after_results <;> rfl

theorem d_keep_arg4 : after segD V (Proc.devRef .tc main_arg4) = V (Proc.devRef .tc main_arg4) := by
  after_results <;> rfl

theorem d_keep_arg5 : after segD V (Proc.devRef .tc main_arg5) = V (Proc.devRef .tc main_arg5) := by
  after_results <;> rfl

set_option maxHeartbeats 2000000 in
theorem e_v46 : after segE V (Proc.devRef .tc main_v46) = Stages.addBias (F := F) (Stages.aggOf (F := F) (V (Proc.devRef .tc main_v3)) (V (Proc.devRef .tc main_v6)) (V (Proc.devRef .tc main_v29)) (V (Proc.devRef .tc main_v30))) (V (Proc.devRef .tc main_arg3)) := by
  after_results_simp <;> rfl

theorem e_keep_v3 : after segE V (Proc.devRef .tc main_v3) = V (Proc.devRef .tc main_v3) := by
  after_results <;> rfl

theorem e_keep_v6 : after segE V (Proc.devRef .tc main_v6) = V (Proc.devRef .tc main_v6) := by
  after_results <;> rfl

theorem e_keep_v29 : after segE V (Proc.devRef .tc main_v29) = V (Proc.devRef .tc main_v29) := by
  after_results <;> rfl

theorem e_keep_arg4 : after segE V (Proc.devRef .tc main_arg4) = V (Proc.devRef .tc main_arg4) := by
  after_results <;> rfl

theorem e_keep_arg5 : after segE V (Proc.devRef .tc main_arg5) = V (Proc.devRef .tc main_arg5) := by
  after_results <;> rfl

theorem f_v47 : after segF V (Proc.devRef .tc main_v47) = Stages.relu (F := F) (V (Proc.devRef .tc main_v46)) := by
  after_results <;> rfl

theorem f_keep_v3 : after segF V (Proc.devRef .tc main_v3) = V (Proc.devRef .tc main_v3) := by
  after_results <;> rfl

theorem f_keep_v6 : after segF V (Proc.devRef .tc main_v6) = V (Proc.devRef .tc main_v6) := by
  after_results <;> rfl

theorem f_keep_v29 : after segF V (Proc.devRef .tc main_v29) = V (Proc.devRef .tc main_v29) := by
  after_results <;> rfl

theorem f_keep_arg4 : after segF V (Proc.devRef .tc main_arg4) = V (Proc.devRef .tc main_arg4) := by
  after_results <;> rfl

theorem f_keep_arg5 : after segF V (Proc.devRef .tc main_arg5) = V (Proc.devRef .tc main_arg5) := by
  after_results <;> rfl

theorem g_v48 : after segG V (Proc.devRef .tc main_v48) = Stages.lin2 (F := F) (V (Proc.devRef .tc main_v47)) (V (Proc.devRef .tc main_arg4)) := by
  after_results <;> rfl

theorem g_keep_v3 : after segG V (Proc.devRef .tc main_v3) = V (Proc.devRef .tc main_v3) := by
  after_results <;> rfl

theorem g_keep_v6 : after segG V (Proc.devRef .tc main_v6) = V (Proc.devRef .tc main_v6) := by
  after_results <;> rfl

theorem g_keep_v29 : after segG V (Proc.devRef .tc main_v29) = V (Proc.devRef .tc main_v29) := by
  after_results <;> rfl

theorem g_keep_arg5 : after segG V (Proc.devRef .tc main_arg5) = V (Proc.devRef .tc main_arg5) := by
  after_results <;> rfl

set_option maxHeartbeats 2000000 in
theorem h_v64 : after segH V (Proc.devRef .tc main_v64) = Stages.addBias (F := F) (Stages.aggOf (F := F) (V (Proc.devRef .tc main_v3)) (V (Proc.devRef .tc main_v6)) (V (Proc.devRef .tc main_v29)) (V (Proc.devRef .tc main_v48))) (V (Proc.devRef .tc main_arg5)) := by
  after_results_simp <;> rfl

theorem i1_v0 : after segI1 V (Proc.devRef .tc main_call2_v0) = Host.reduce FloatOps.maximumf (V (Proc.devRef .tc main_v64)) (constant (F := F) S_ .f32 0xFF800000#32) reducesTo_S100000x16_S100000_d1 h_S_ := by
  after_results
  simp only [TRef.toBuf, TRef.ofBuf, cast_eq]

theorem i1_keep_v64 : after segI1 V (Proc.devRef .tc main_v64) = V (Proc.devRef .tc main_v64) := by
  after_results <;> rfl

theorem i2_v2 : after segI2 V (Proc.devRef .tc main_call2_v2) = maximumf (broadcastInDim S100000 ![] bcast_S_S100000 (constant (F := F) S_ .f32 0xFF800000#32)) (V (Proc.devRef .tc main_call2_v0)) := by
  after_results <;> rfl

theorem i2_keep_v64 : after segI2 V (Proc.devRef .tc main_v64) = V (Proc.devRef .tc main_v64) := by
  after_results <;> rfl

theorem i3_v5 : after segI3 V (Proc.devRef .tc main_call2_v5) = subf (V (Proc.devRef .tc main_v64)) (broadcastInDim S100000x16 ![0, 1] bcast_S100000x1_S100000x16_0_1 (broadcastInDim S100000x1 ![0] bcast_S100000_S100000x1_0 (V (Proc.devRef .tc main_call2_v2)))) := by
  after_results <;> rfl

theorem j1_v7 : after segJ1 V (Proc.devRef .tc main_call2_v7) = Host.reduceAdd (Host.exp (V (Proc.devRef .tc main_call2_v5))) (constant (F := F) S_ .f32 0x00000000#32) reducesTo_S100000x16_S100000_d1 h_S_ := by
  after_results <;> rfl

theorem j1_keep_v5 : after segJ1 V (Proc.devRef .tc main_call2_v5) = V (Proc.devRef .tc main_call2_v5) := by
  after_results <;> rfl

theorem j2_v65 : after segJ2 V (Proc.devRef .tc main_v65) = subf (V (Proc.devRef .tc main_call2_v5)) (broadcastInDim S100000x16 ![0, 1] bcast_S100000x1_S100000x16_0_1 (Host.log (broadcastInDim S100000x1 ![0] bcast_S100000_S100000x1_0 (V (Proc.devRef .tc main_call2_v7))))) := by
  after_results <;> rfl

end Segments

/-! ## The contents at each boundary -/

variable (m : (ℓ : Loc nD τ sig) → Buf (Elt F) ℓ) (c : Dev nD)

abbrev U0 : Valuation τ sig (Elt F) := launchContents m c
abbrev U1 : Valuation τ sig (Elt F) := after segA (U0 m c)
abbrev U2 : Valuation τ sig (Elt F) := after segB (U1 m c)
abbrev U3 : Valuation τ sig (Elt F) := after segC (U2 m c)
abbrev U4 : Valuation τ sig (Elt F) := after segD (U3 m c)
abbrev U5 : Valuation τ sig (Elt F) := after segE (U4 m c)
abbrev U6 : Valuation τ sig (Elt F) := after segF (U5 m c)
abbrev U7 : Valuation τ sig (Elt F) := after segG (U6 m c)
abbrev U8 : Valuation τ sig (Elt F) := after segH (U7 m c)
abbrev U9 : Valuation τ sig (Elt F) := after segI1 (U8 m c)
abbrev U10 : Valuation τ sig (Elt F) := after segI2 (U9 m c)
abbrev U11 : Valuation τ sig (Elt F) := after segI3 (U10 m c)
abbrev U12 : Valuation τ sig (Elt F) := after segJ1 (U11 m c)
abbrev U13 : Valuation τ sig (Elt F) := after segJ2 (U12 m c)

/-- The whole line's contents are the last boundary's. -/
theorem after_ops : after ops (launchContents m c) = U13 m c := by
  rw [ops_eq]
  simp only [after_append]

theorem src1 : U1 m c (Proc.devRef .tc main_v3) = Stages.srcIdx (F := F) (m ((c.tc : Thread nD τ).loc main_arg1)) := a_v3 (U0 m c)
theorem dst1 : U1 m c (Proc.devRef .tc main_v6) = Stages.dstIdx (F := F) (m ((c.tc : Thread nD τ).loc main_arg1)) := a_v6 (U0 m c)
theorem pos1 : U1 m c (Proc.devRef .tc main_v12) = cmpf .ogt (Stages.deg (F := F) (m ((c.tc : Thread nD τ).loc main_arg1))) (broadcastInDim S100000 ![] bcast_S_S100000 (constant (F := F) S_ .f32 0x00000000#32)) := a_v12 (U0 m c)
theorem rs1 : U1 m c (Proc.devRef .tc main_v13) = Host.rsqrt (F := F) (s := S100000) (φ := .f32) (Stages.deg (F := F) (m ((c.tc : Thread nD τ).loc main_arg1))) := a_v13 (U0 m c)
theorem cst1 : U1 m c (Proc.devRef .tc main_cst_2) = constant (F := F) S_ .f32 0x00000000#32 := a_cst_2 (U0 m c)
theorem arg0_1 : U1 m c (Proc.devRef .tc main_arg0) = m ((c.tc : Thread nD τ).loc main_arg0) := a_keep_arg0 (U0 m c)
theorem arg2_1 : U1 m c (Proc.devRef .tc main_arg2) = m ((c.tc : Thread nD τ).loc main_arg2) := a_keep_arg2 (U0 m c)
theorem arg3_1 : U1 m c (Proc.devRef .tc main_arg3) = m ((c.tc : Thread nD τ).loc main_arg3) := a_keep_arg3 (U0 m c)
theorem arg4_1 : U1 m c (Proc.devRef .tc main_arg4) = m ((c.tc : Thread nD τ).loc main_arg4) := a_keep_arg4 (U0 m c)
theorem arg5_1 : U1 m c (Proc.devRef .tc main_arg5) = m ((c.tc : Thread nD τ).loc main_arg5) := a_keep_arg5 (U0 m c)

theorem dinv2 : U2 m c (Proc.devRef .tc main_v14) = Stages.dinv (F := F) (m ((c.tc : Thread nD τ).loc main_arg1)) :=
  (b_v14 (U1 m c)).trans (by rw [pos1, rs1, cst1]; rfl)
theorem src2 : U2 m c (Proc.devRef .tc main_v3) = Stages.srcIdx (F := F) (m ((c.tc : Thread nD τ).loc main_arg1)) := (b_keep_v3 (U1 m c)).trans (src1 m c)
theorem dst2 : U2 m c (Proc.devRef .tc main_v6) = Stages.dstIdx (F := F) (m ((c.tc : Thread nD τ).loc main_arg1)) := (b_keep_v6 (U1 m c)).trans (dst1 m c)
theorem arg0_2 : U2 m c (Proc.devRef .tc main_arg0) = m ((c.tc : Thread nD τ).loc main_arg0) := (b_keep_arg0 (U1 m c)).trans (arg0_1 m c)
theorem arg2_2 : U2 m c (Proc.devRef .tc main_arg2) = m ((c.tc : Thread nD τ).loc main_arg2) := (b_keep_arg2 (U1 m c)).trans (arg2_1 m c)
theorem arg3_2 : U2 m c (Proc.devRef .tc main_arg3) = m ((c.tc : Thread nD τ).loc main_arg3) := (b_keep_arg3 (U1 m c)).trans (arg3_1 m c)
theorem arg4_2 : U2 m c (Proc.devRef .tc main_arg4) = m ((c.tc : Thread nD τ).loc main_arg4) := (b_keep_arg4 (U1 m c)).trans (arg4_1 m c)
theorem arg5_2 : U2 m c (Proc.devRef .tc main_arg5) = m ((c.tc : Thread nD τ).loc main_arg5) := (b_keep_arg5 (U1 m c)).trans (arg5_1 m c)

theorem nrm3 : U3 m c (Proc.devRef .tc main_v29) = Stages.nrm (F := F) (m ((c.tc : Thread nD τ).loc main_arg1)) :=
  (c_v29 (U2 m c)).trans (by rw [dinv2, src2, dst2]; rfl)
theorem src3 : U3 m c (Proc.devRef .tc main_v3) = Stages.srcIdx (F := F) (m ((c.tc : Thread nD τ).loc main_arg1)) := (c_keep_v3 (U2 m c)).trans (src2 m c)
theorem dst3 : U3 m c (Proc.devRef .tc main_v6) = Stages.dstIdx (F := F) (m ((c.tc : Thread nD τ).loc main_arg1)) := (c_keep_v6 (U2 m c)).trans (dst2 m c)
theorem arg0_3 : U3 m c (Proc.devRef .tc main_arg0) = m ((c.tc : Thread nD τ).loc main_arg0) := (c_keep_arg0 (U2 m c)).trans (arg0_2 m c)
theorem arg2_3 : U3 m c (Proc.devRef .tc main_arg2) = m ((c.tc : Thread nD τ).loc main_arg2) := (c_keep_arg2 (U2 m c)).trans (arg2_2 m c)
theorem arg3_3 : U3 m c (Proc.devRef .tc main_arg3) = m ((c.tc : Thread nD τ).loc main_arg3) := (c_keep_arg3 (U2 m c)).trans (arg3_2 m c)
theorem arg4_3 : U3 m c (Proc.devRef .tc main_arg4) = m ((c.tc : Thread nD τ).loc main_arg4) := (c_keep_arg4 (U2 m c)).trans (arg4_2 m c)
theorem arg5_3 : U3 m c (Proc.devRef .tc main_arg5) = m ((c.tc : Thread nD τ).loc main_arg5) := (c_keep_arg5 (U2 m c)).trans (arg5_2 m c)

theorem lin4 : U4 m c (Proc.devRef .tc main_v30) = Stages.lin1 (F := F) (m ((c.tc : Thread nD τ).loc main_arg0)) (m ((c.tc : Thread nD τ).loc main_arg2)) :=
  (d_v30 (U3 m c)).trans (by rw [arg0_3, arg2_3])
theorem src4 : U4 m c (Proc.devRef .tc main_v3) = Stages.srcIdx (F := F) (m ((c.tc : Thread nD τ).loc main_arg1)) := (d_keep_v3 (U3 m c)).trans (src3 m c)
theorem dst4 : U4 m c (Proc.devRef .tc main_v6) = Stages.dstIdx (F := F) (m ((c.tc : Thread nD τ).loc main_arg1)) := (d_keep_v6 (U3 m c)).trans (dst3 m c)
theorem nrm4 : U4 m c (Proc.devRef .tc main_v29) = Stages.nrm (F := F) (m ((c.tc : Thread nD τ).loc main_arg1)) := (d_keep_v29 (U3 m c)).trans (nrm3 m c)
theorem arg3_4 : U4 m c (Proc.devRef .tc main_arg3) = m ((c.tc : Thread nD τ).loc main_arg3) := (d_keep_arg3 (U3 m c)).trans (arg3_3 m c)
theorem arg4_4 : U4 m c (Proc.devRef .tc main_arg4) = m ((c.tc : Thread nD τ).loc main_arg4) := (d_keep_arg4 (U3 m c)).trans (arg4_3 m c)
theorem arg5_4 : U4 m c (Proc.devRef .tc main_arg5) = m ((c.tc : Thread nD τ).loc main_arg5) := (d_keep_arg5 (U3 m c)).trans (arg5_3 m c)

theorem pre5 : U5 m c (Proc.devRef .tc main_v46)
    = Stages.addBias (F := F) (Stages.agg (F := F) (m ((c.tc : Thread nD τ).loc main_arg1)) (Stages.lin1 (F := F) (m ((c.tc : Thread nD τ).loc main_arg0)) (m ((c.tc : Thread nD τ).loc main_arg2)))) (m ((c.tc : Thread nD τ).loc main_arg3)) :=
  (e_v46 (U4 m c)).trans (by rw [src4, dst4, nrm4, lin4, arg3_4]; rfl)
theorem src5 : U5 m c (Proc.devRef .tc main_v3) = Stages.srcIdx (F := F) (m ((c.tc : Thread nD τ).loc main_arg1)) := (e_keep_v3 (U4 m c)).trans (src4 m c)
theorem dst5 : U5 m c (Proc.devRef .tc main_v6) = Stages.dstIdx (F := F) (m ((c.tc : Thread nD τ).loc main_arg1)) := (e_keep_v6 (U4 m c)).trans (dst4 m c)
theorem nrm5 : U5 m c (Proc.devRef .tc main_v29) = Stages.nrm (F := F) (m ((c.tc : Thread nD τ).loc main_arg1)) := (e_keep_v29 (U4 m c)).trans (nrm4 m c)
theorem arg4_5 : U5 m c (Proc.devRef .tc main_arg4) = m ((c.tc : Thread nD τ).loc main_arg4) := (e_keep_arg4 (U4 m c)).trans (arg4_4 m c)
theorem arg5_5 : U5 m c (Proc.devRef .tc main_arg5) = m ((c.tc : Thread nD τ).loc main_arg5) := (e_keep_arg5 (U4 m c)).trans (arg5_4 m c)

theorem hid6 : U6 m c (Proc.devRef .tc main_v47) = Stages.hidden (F := F) (m ((c.tc : Thread nD τ).loc main_arg0)) (m ((c.tc : Thread nD τ).loc main_arg1)) (m ((c.tc : Thread nD τ).loc main_arg2)) (m ((c.tc : Thread nD τ).loc main_arg3)) :=
  (f_v47 (U5 m c)).trans (by rw [pre5]; rfl)
theorem src6 : U6 m c (Proc.devRef .tc main_v3) = Stages.srcIdx (F := F) (m ((c.tc : Thread nD τ).loc main_arg1)) := (f_keep_v3 (U5 m c)).trans (src5 m c)
theorem dst6 : U6 m c (Proc.devRef .tc main_v6) = Stages.dstIdx (F := F) (m ((c.tc : Thread nD τ).loc main_arg1)) := (f_keep_v6 (U5 m c)).trans (dst5 m c)
theorem nrm6 : U6 m c (Proc.devRef .tc main_v29) = Stages.nrm (F := F) (m ((c.tc : Thread nD τ).loc main_arg1)) := (f_keep_v29 (U5 m c)).trans (nrm5 m c)
theorem arg4_6 : U6 m c (Proc.devRef .tc main_arg4) = m ((c.tc : Thread nD τ).loc main_arg4) := (f_keep_arg4 (U5 m c)).trans (arg4_5 m c)
theorem arg5_6 : U6 m c (Proc.devRef .tc main_arg5) = m ((c.tc : Thread nD τ).loc main_arg5) := (f_keep_arg5 (U5 m c)).trans (arg5_5 m c)

theorem lin7 : U7 m c (Proc.devRef .tc main_v48)
    = Stages.lin2 (F := F) (Stages.hidden (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) :=
  (g_v48 (U6 m c)).trans (by rw [hid6, arg4_6])
theorem src7 : U7 m c (Proc.devRef .tc main_v3) = Stages.srcIdx (F := F) (m ((c.tc : Thread nD τ).loc main_arg1)) := (g_keep_v3 (U6 m c)).trans (src6 m c)
theorem dst7 : U7 m c (Proc.devRef .tc main_v6) = Stages.dstIdx (F := F) (m ((c.tc : Thread nD τ).loc main_arg1)) := (g_keep_v6 (U6 m c)).trans (dst6 m c)
theorem nrm7 : U7 m c (Proc.devRef .tc main_v29) = Stages.nrm (F := F) (m ((c.tc : Thread nD τ).loc main_arg1)) := (g_keep_v29 (U6 m c)).trans (nrm6 m c)
theorem arg5_7 : U7 m c (Proc.devRef .tc main_arg5) = m ((c.tc : Thread nD τ).loc main_arg5) := (g_keep_arg5 (U6 m c)).trans (arg5_6 m c)

theorem pre8 : U8 m c (Proc.devRef .tc main_v64)
    = Stages.addBias (F := F) (Stages.agg (F := F) (m ((c.tc : Thread nD τ).loc main_arg1))
        (Stages.lin2 (F := F) (Stages.hidden (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))) (m ((c.tc : Thread nD τ).loc main_arg5)) :=
  (h_v64 (U7 m c)).trans (by rw [src7, dst7, nrm7, lin7, arg5_7]; rfl)

/-- The biased second propagation step: what the log softmax is taken of. -/
abbrev logits : (⟨S100000x16, .f32⟩ : BufTy).Contents (Elt F) := (Stages.addBias (F := F) (Stages.agg (F := F) (m ((c.tc : Thread nD τ).loc main_arg1))
        (Stages.lin2 (F := F) (Stages.hidden (F := F) (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)))) (m ((c.tc : Thread nD τ).loc main_arg5)))

theorem top9 : U9 m c (Proc.devRef .tc main_call2_v0) = Host.reduce FloatOps.maximumf (logits m c) (constant (F := F) S_ .f32 0xFF800000#32) reducesTo_S100000x16_S100000_d1 h_S_ :=
  (i1_v0 (U8 m c)).trans (by rw [pre8])
theorem z9 : U9 m c (Proc.devRef .tc main_v64) = logits m c := (i1_keep_v64 (U8 m c)).trans (pre8 m c)
theorem top10 : U10 m c (Proc.devRef .tc main_call2_v2) = Stages.rowMax (F := F) (logits m c) :=
  (i2_v2 (U9 m c)).trans (by rw [top9]; rfl)
theorem z10 : U10 m c (Proc.devRef .tc main_v64) = logits m c := (i2_keep_v64 (U9 m c)).trans (z9 m c)
theorem sh11 : U11 m c (Proc.devRef .tc main_call2_v5) = Stages.shifted (F := F) (logits m c) :=
  (i3_v5 (U10 m c)).trans (by rw [z10, top10]; rfl)
theorem sum12 : U12 m c (Proc.devRef .tc main_call2_v7) = Host.reduceAdd (Host.exp (Stages.shifted (F := F) (logits m c)))
    (constant (F := F) S_ .f32 0x00000000#32) reducesTo_S100000x16_S100000_d1 h_S_ :=
  (j1_v7 (U11 m c)).trans (by rw [sh11])
theorem sh12 : U12 m c (Proc.devRef .tc main_call2_v5) = Stages.shifted (F := F) (logits m c) := (j1_keep_v5 (U11 m c)).trans (sh11 m c)

/-- The result buffer after the whole line: the network of the arguments as launched. -/
theorem result : after ops (launchContents m c) (Proc.devRef .tc main_v65)
    = Stages.network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops]
  exact (j2_v65 (U12 m c)).trans (by rw [sh12, sum12]; rfl)

end Cert.ReferenceIdeal.RefValue

end
-- ==== Proof.RefArgs.lean ====
/-
  The reference program leaves its arguments as launched: none of its 98 operations writes an argument's
  buffer, so the fold of the operations over the launch contents reads, at an argument, the launch contents.
-/
import proofs.«152566_j47450798686653_1_alg».proof.Proof.RefLine

noncomputable section

namespace Cert.ReferenceIdeal.RefArgs

open Cert.ReferenceIdeal Cert.ReferenceIdeal.Gen Cert.ReferenceIdeal.RefLine
open Idealize.ShloMosaic Idealize.ShloMosaic.TcCoe Idealize.SL.Sem Idealize.ShloMosaic.StableHlo

variable {F : FTy → Type} [FloatOps F] (m : (ℓ : Loc nD τ sig) → Buf (Elt F) ℓ) (c : Dev nD)

set_option maxRecDepth 8192 in
set_option maxHeartbeats 4000000 in
theorem kept_0 : after ops (launchContents m c) (Proc.devRef .tc main_arg0) = m ((c.tc : Thread nD τ).loc main_arg0) := by
  after_results_simp <;> rfl

set_option maxRecDepth 8192 in
set_option maxHeartbeats 4000000 in
theorem kept_1 : after ops (launchContents m c) (Proc.devRef .tc main_arg1) = m ((c.tc : Thread nD τ).loc main_arg1) := by
  after_results_simp <;> rfl

set_option maxRecDepth 8192 in
set_option maxHeartbeats 4000000 in
theorem kept_2 : after ops (launchContents m c) (Proc.devRef .tc main_arg2) = m ((c.tc : Thread nD τ).loc main_arg2) := by
  after_results_simp <;> rfl

set_option maxRecDepth 8192 in
set_option maxHeartbeats 4000000 in
theorem kept_3 : after ops (launchContents m c) (Proc.devRef .tc main_arg3) = m ((c.tc : Thread nD τ).loc main_arg3) := by
  after_results_simp <;> rfl

set_option maxRecDepth 8192 in
set_option maxHeartbeats 4000000 in
theorem kept_4 : after ops (launchContents m c) (Proc.devRef .tc main_arg4) = m ((c.tc : Thread nD τ).loc main_arg4) := by
  after_results_simp <;> rfl

set_option maxRecDepth 8192 in
set_option maxHeartbeats 4000000 in
theorem kept_5 : after ops (launchContents m c) (Proc.devRef .tc main_arg5) = m ((c.tc : Thread nD τ).loc main_arg5) := by
  after_results_simp <;> rfl

end Cert.ReferenceIdeal.RefArgs

end
-- ==== Proof.lean ====
/-
  A two-layer graph convolution network, written as four tiled kernels with the edge-list work between them,
  against the same network written with whole-array operations.

  Both programs build, from the table of edges, the list of sources and targets with one self loop per node,
  the degree of every node, its inverse square root (zero where the degree is not positive), and the weight
  `dinv[src] · dinv[dst]` of every entry of the list; one propagation step gathers the source rows of the node
  features, scales them by the weights and adds them up at the target rows.  The network is

      logSoftmax (propagate (relu (propagate (x · W₁) + b₁) · W₂) + b₂).

  The two programs perform the edge-list work with the same operations and the same constants.  They differ
  in the four dense stages, which the first computes block of rows by block of rows: the two products
  (operands narrowed to a shorter float format first, which at the ideal instance changes nothing; the
  product of a block is the block of the product), the bias with the maximum against zero (the bias reaching
  a block as a one-row matrix), and the bias with the row-wise log softmax (a row of a block is a row of the
  array, and the stage looks at one row at a time).  The reference's log softmax takes one more maximum of
  each row's largest entry with `-∞`, which changes nothing.  On extended reals, then, both results are the
  same function of the six arguments, with no condition on them: no law is used beyond reading a sum or a
  maximum over the same index set on both sides.

  The three frame claims: the two kernel programs' are the generated frame theorems; the reference is one
  straight line of host operations, none of which writes an argument.  The idealization rewrote nothing, so
  that claim is `True`.
-/
import proofs.«152566_j47450798686653_1_alg».proof.Defs
import proofs.«152566_j47450798686653_1_alg».proof.Proof.Gen.Kernel
import proofs.«152566_j47450798686653_1_alg».proof.Proof.Gen.Kernel.Skeleton
import proofs.«152566_j47450798686653_1_alg».proof.Proof.Gen.Kernel.Launch
import proofs.«152566_j47450798686653_1_alg».proof.Proof.Gen.Kernel.Points
import proofs.«152566_j47450798686653_1_alg».proof.Proof.Gen.Kernel.Frame
import proofs.«152566_j47450798686653_1_alg».proof.Proof.Gen.KernelIdeal
import proofs.«152566_j47450798686653_1_alg».proof.Proof.Gen.KernelIdeal.Skeleton
import proofs.«152566_j47450798686653_1_alg».proof.Proof.Gen.KernelIdeal.Launch
import proofs.«152566_j47450798686653_1_alg».proof.Proof.Gen.KernelIdeal.Points
import proofs.«152566_j47450798686653_1_alg».proof.Proof.Gen.KernelIdeal.Frame
import proofs.«152566_j47450798686653_1_alg».proof.Proof.Gen.ReferenceIdeal
import proofs.«152566_j47450798686653_1_alg».proof.Proof.Gen.Pre_finite_inputs
import proofs.«152566_j47450798686653_1_alg».proof.Proof.KRun
import proofs.«152566_j47450798686653_1_alg».proof.Proof.KValue
import proofs.«152566_j47450798686653_1_alg».proof.Proof.RefLine
import proofs.«152566_j47450798686653_1_alg».proof.Proof.RefValue
import proofs.«152566_j47450798686653_1_alg».proof.Proof.RefArgs
import proofs.«152566_j47450798686653_1_alg».proof.Proof.StagesRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates, and none of its operations writes an argument. -/
theorem frame_reference : Cert.frame_ReferenceIdeal := fun m ρ _ =>
  (θ_run Cert.ReferenceIdeal.defs _ _).mono (fun r h c =>
    ⟨(h c Cert.ReferenceIdeal.main_arg0).trans (Cert.ReferenceIdeal.RefArgs.kept_0 m c),
     (h c Cert.ReferenceIdeal.main_arg1).trans (Cert.ReferenceIdeal.RefArgs.kept_1 m c),
     (h c Cert.ReferenceIdeal.main_arg2).trans (Cert.ReferenceIdeal.RefArgs.kept_2 m c),
     (h c Cert.ReferenceIdeal.main_arg3).trans (Cert.ReferenceIdeal.RefArgs.kept_3 m c),
     (h c Cert.ReferenceIdeal.main_arg4).trans (Cert.ReferenceIdeal.RefArgs.kept_4 m c),
     (h c Cert.ReferenceIdeal.main_arg5).trans (Cert.ReferenceIdeal.RefArgs.kept_5 m c)⟩)
    (Cert.ReferenceIdeal.RefLine.run_raw (F := Ideal) m ρ)

/-- The idealization rewrote no operation. -/
theorem preserves : Cert.preserves_Kernel_KernelIdeal := trivial

/-- Run from memories that agree on the six arguments, both programs end with the network of those
    arguments in their result buffers, entry by entry as extended reals, and the arguments unchanged. -/
theorem algebraic : Cert.algebraic_KernelIdeal_ReferenceIdeal := by
  intro m ρ m' ρ' _ hagree
  refine ⟨fun c => Cert.ReferenceIdeal.StagesRead.netSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result m ρ c), (h c).2⟩) (Cert.KernelIdeal.ResultRun.run m ρ)
  · refine (θ_run Cert.ReferenceIdeal.defs _ _).mono (fun r h c => ⟨?_,
      (h c Cert.ReferenceIdeal.main_arg0).trans (Cert.ReferenceIdeal.RefArgs.kept_0 m' c),
      (h c Cert.ReferenceIdeal.main_arg1).trans (Cert.ReferenceIdeal.RefArgs.kept_1 m' c),
      (h c Cert.ReferenceIdeal.main_arg2).trans (Cert.ReferenceIdeal.RefArgs.kept_2 m' c),
      (h c Cert.ReferenceIdeal.main_arg3).trans (Cert.ReferenceIdeal.RefArgs.kept_3 m' c),
      (h c Cert.ReferenceIdeal.main_arg4).trans (Cert.ReferenceIdeal.RefArgs.kept_4 m' c),
      (h c Cert.ReferenceIdeal.main_arg5).trans (Cert.ReferenceIdeal.RefArgs.kept_5 m' c)⟩)
      (Cert.ReferenceIdeal.RefLine.run_raw (F := Ideal) m' ρ')
    rw [h c Cert.ReferenceIdeal.main_v65, Cert.ReferenceIdeal.RefValue.result, Cert.ReferenceIdeal.StagesRead.network_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
